-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg6
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x128 .f32) (main_arg1 : IVec S1600000 32) (main_arg2 : IVec S1600000 32) (main_arg3 : FVec F S128x128 .f32) (main_arg4 : FVec F S128 .f32) (main_arg5 : FVec F S128x40 .f32) (main_arg6 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg5
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg6 main_v13 main_v16
-- ==== Kernel.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S2000x128 : Shape := ⟨2, ![2000, 128]⟩
abbrev S2000x1 : Shape := ⟨2, ![2000, 1]⟩
abbrev S1600000x128 : Shape := ⟨2, ![1600000, 128]⟩
abbrev S1x128 : Shape := ⟨2, ![1, 128]⟩
abbrev S50000x40 : Shape := ⟨2, ![50000, 40]⟩
abbrev S2000x40 : Shape := ⟨2, ![2000, 40]⟩
abbrev S1600000x40 : Shape := ⟨2, ![1600000, 40]⟩
abbrev S1x40 : Shape := ⟨2, ![1, 40]⟩

abbrev nBuf : Space → Nat
  | .hbm => 61
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x40, .f32⟩
  | .hbm, ⟨6, _⟩ => ⟨S40, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S50000, .f32⟩
  | .hbm, ⟨11, _⟩ => ⟨S1600000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S1600000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S50000x128, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S50000x128, .f32⟩
  | .hbm, ⟨38, _⟩ => ⟨S1600000x1, .i32⟩
  | .hbm, ⟨39, _⟩ => ⟨S50000x128, .f32⟩
  | .hbm, ⟨40, _⟩ => ⟨S50000x1, .f32⟩
  | .hbm, ⟨41, _⟩ => ⟨S1x128, .f32⟩
  | .hbm, ⟨42, _⟩ => ⟨S50000x128, .f32⟩
  | .hbm, ⟨43, _⟩ => ⟨S50000x1, .f32⟩
  | .hbm, ⟨44, _⟩ => ⟨S50000x40, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x40, .f32⟩
  | .hbm, ⟨54, _⟩ => ⟨S_, .f32⟩
  | .hbm, ⟨55, _⟩ => ⟨S50000x40, .f32⟩
  | .hbm, ⟨56, _⟩ => ⟨S1600000x1, .i32⟩
  | .hbm, ⟨57, _⟩ => ⟨S50000x40, .f32⟩
  | .hbm, ⟨58, _⟩ => ⟨S50000x1, .f32⟩
  | .hbm, ⟨59, _⟩ => ⟨S1x40, .f32⟩
  | .hbm, ⟨60, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x1, .f32⟩
  | .local _ .vmem, ⟨4, _⟩ => ⟨S2000x1, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x40, .f32⟩
  | .local _ .vmem, ⟨17, _⟩ => ⟨S2000x1, .f32⟩
  | .local _ .vmem, ⟨18, _⟩ => ⟨S2000x1, .f32⟩
  | .local _ .vmem, ⟨19, _⟩ => ⟨S2000x40, .f32⟩
  | .local _ .vmem, ⟨20, _⟩ => ⟨S2000x40, .f32⟩
  | .local _ .vmem, ⟨21, _⟩ => ⟨S2000x40, .f32⟩
  | .local _ .vmem, ⟨22, _⟩ => ⟨S2000x40, .f32⟩
  | .local _ .vmem, ⟨23, _⟩ => ⟨S2000x1, .f32⟩
  | .local _ .vmem, ⟨24, _⟩ => ⟨S2000x1, .f32⟩
  | .local _ .vmem, ⟨25, _⟩ => ⟨S1x40, .f32⟩
  | .local _ .vmem, ⟨26, _⟩ => ⟨S2000x40, .f32⟩
  | .local _ .vmem, ⟨27, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_c_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S2000x128_S2000x128 : S2000x128.ShapeCasts S2000x128
  inb_S128x40_S128x40_0_0 : ∀ a, (![0, 0] : Fin 2 → Nat) a + S128x40.size a ≤ S128x40.size a
  h_S128x40 : 0 < S128x40.numel
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  bcast_S_S50000x40 : S_.BroadcastsInDim S50000x40 (![] : Fin 0 → Fin S50000x40.rank)
  shapeCasts_S40_S1x40 : S40.ShapeCasts S1x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  shapeCasts_S2000x40_S2000x40 : S2000x40.ShapeCasts S2000x40
  scatter_S50000_S1600000x1_S1600000_n_0_0_1_wf : ScatterDims.WF S50000 S1600000x1 S1600000 [] [0] [0] 1
  dot_S2000x128_S128x128_S2000x128_1_0_0_1_n_n_wf : DotDims.WF S2000x128 S128x128 S2000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S2000x128_S128x40_S2000x40_1_0_0_1_n_n_wf : DotDims.WF S2000x128 S128x40 S2000x40 [1] [0] [0] [1] [] []
  gather_S50000x40_S1600000x1_S1600000x40_1_0_n_n_0_1_140_wf : GatherDims.WF S50000x40 S1600000x1 S1600000x40 [1] [0] [] [0] [] 1 ![1, 40]
  scatter_S50000x40_S1600000x1_S1600000x40_1_0_0_1_wf : ScatterDims.WF S50000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x40.size a ≤ S50000x40.size a
  hwx2_3 : ∀ i : grid2.Coords, EltTy.bits .f32 = 32 ∨ (Rect.block (s := S50000x40) S2000x40.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x40.size a ≤ S50000x40.size a
  hwx3_0 : ∀ i : grid3.Coords, EltTy.bits .f32 = 32 ∨ (Rect.block (s := S50000x40) S2000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x40.size a ≤ S1x40.size a
  hwx3_2 : ∀ i : grid3.Coords, EltTy.bits .f32 = 32 ∨ (Rect.block (s := S1x40) S1x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x40.size a ≤ S50000x40.size a
  hwx3_3 : ∀ i : grid3.Coords, EltTy.bits .f32 = 32 ∨ (Rect.block (s := S50000x40) S2000x40.size (cc3_transform_3 i) (hinb3_3 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S50000x40_S1600000x1_S1600000x40_1_0_n_n_0_1_140 : GatherDims S50000x40 S1600000x1 S1600000x40 where
  offsetDims := [1]
  collapsedSliceDims := [0]
  operandBatchingDims := []
  startIndicesBatchingDims := []
  startIndexMap := [0]
  indexVectorDim := 1
  sliceSizes := ![1, 40]
  wf := gather_S50000x40_S1600000x1_S1600000x40_1_0_n_n_0_1_140_wf
def scatter_S50000x40_S1600000x1_S1600000x40_1_0_0_1 : ScatterDims S50000x40 S1600000x1 S1600000x40 where
  updateWindowDims := [1]
  insertedWindowDims := [0]
  scatterDimsToOperandDims := [0]
  indexVectorDim := 1
  wf := scatter_S50000x40_S1600000x1_S1600000x40_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v27) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29) S2000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v39) S2000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v41) S1x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v42) S2000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x128 : Shape := ⟨2, ![1600000, 128]⟩
abbrev S1x128 : Shape := ⟨2, ![1, 128]⟩
abbrev S50000x40 : Shape := ⟨2, ![50000, 40]⟩
abbrev S1600000x40 : Shape := ⟨2, ![1600000, 40]⟩
abbrev S1x40 : Shape := ⟨2, ![1, 40]⟩

abbrev nBuf : Space → Nat
  | .hbm => 74
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x40, .f32⟩
  | .hbm, ⟨6, _⟩ => ⟨S40, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S50000, .f32⟩
  | .hbm, ⟨11, _⟩ => ⟨S1600000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S1600000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S50000x128, .f32⟩
  | .hbm, ⟨27, _⟩ => ⟨S50000x128, .f32⟩
  | .hbm, ⟨28, _⟩ => ⟨S50000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S50000x128, .f32⟩
  | .hbm, ⟨40, _⟩ => ⟨S1600000x1, .i32⟩
  | .hbm, ⟨41, _⟩ => ⟨S50000x128, .f32⟩
  | .hbm, ⟨42, _⟩ => ⟨S50000x1, .f32⟩
  | .hbm, ⟨43, _⟩ => ⟨S50000x128, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S50000x1, .f32⟩
  | .hbm, ⟨52, _⟩ => ⟨S50000x128, .f32⟩
  | .hbm, ⟨53, _⟩ => ⟨S50000x128, .f32⟩
  | .hbm, ⟨54, _⟩ => ⟨S50000x40, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x40, .f32⟩
  | .hbm, ⟨64, _⟩ => ⟨S_, .f32⟩
  | .hbm, ⟨65, _⟩ => ⟨S50000x40, .f32⟩
  | .hbm, ⟨66, _⟩ => ⟨S1600000x1, .i32⟩
  | .hbm, ⟨67, _⟩ => ⟨S50000x40, .f32⟩
  | .hbm, ⟨68, _⟩ => ⟨S50000x1, .f32⟩
  | .hbm, ⟨69, _⟩ => ⟨S50000x40, .f32⟩
  | .hbm, ⟨70, _⟩ => ⟨S50000x40, .f32⟩
  | .hbm, ⟨71, _⟩ => ⟨S1x40, .f32⟩
  | .hbm, ⟨72, _⟩ => ⟨S50000x40, .f32⟩
  | .hbm, ⟨73, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_v39 : Ref sig .tc := ⟨.hbm, 57, rfl⟩
abbrev main_c_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x40 : S_.BroadcastsInDim S50000x40 (![] : Fin 0 → Fin S50000x40.rank)
  bcast_S50000x1_S50000x40_0_1 : S50000x1.BroadcastsInDim S50000x40 (![0, 1] : Fin 2 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S1600000x1_S1600000_n_0_0_1_wf : ScatterDims.WF S50000 S1600000x1 S1600000 [] [0] [0] 1
  dot_S50000x128_S128x128_S50000x128_1_0_0_1_n_n_wf : DotDims.WF S50000x128 S128x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x40_S50000x40_1_0_0_1_n_n_wf : DotDims.WF S50000x128 S128x40 S50000x40 [1] [0] [0] [1] [] []
  gather_S50000x40_S1600000x1_S1600000x40_1_0_n_n_0_1_140_wf : GatherDims.WF S50000x40 S1600000x1 S1600000x40 [1] [0] [] [0] [] 1 ![1, 40]
  scatter_S50000x40_S1600000x1_S1600000x40_1_0_0_1_wf : ScatterDims.WF S50000x40 S1600000x1 S1600000x40 [1] [0] [0] 1

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S1600000x1_S1600000x40_1_0_n_n_0_1_140 : GatherDims S50000x40 S1600000x1 S1600000x40 where
  offsetDims := [1]
  collapsedSliceDims := [0]
  operandBatchingDims := []
  startIndicesBatchingDims := []
  startIndexMap := [0]
  indexVectorDim := 1
  sliceSizes := ![1, 40]
  wf := gather_S50000x40_S1600000x1_S1600000x40_1_0_n_n_0_1_140_wf
def scatter_S50000x40_S1600000x1_S1600000x40_1_0_0_1 : ScatterDims S50000x40 S1600000x1 S1600000x40 where
  updateWindowDims := [1]
  insertedWindowDims := [0]
  scatterDimsToOperandDims := [0]
  indexVectorDim := 1
  wf := scatter_S50000x40_S1600000x1_S1600000x40_1_0_0_1_wf

class Facts : Prop extends Facts₀ where

variable [Facts]
-- ==== Proof.KernelRun.lean ====
/-
  The idealized kernel's run with its RESULT named.  The program is four pipelined regions among four stretches of
  host operations; the launch theorem for such a program ends in the thread state "every unscoped buffer holds the last
  boundary's contents" (`W8`: the fold of the stretches' operations and the regions' write-backs from the launch
  memory).  The frame reads only the argument buffers off that state; here the result buffer `main_v42` is read off it
  as well, at `W8`.  What `W8` holds there, as a function of the arguments, is a separate matter (the fold is read
  back boundary by boundary elsewhere).
-/
import proofs.«140253_j16192026706523_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the idealized kernel terminates, nothing faulting, with the result buffer at the
    last boundary's contents and the argument arrays as launched. -/
theorem run_result : θ_run defs (onTc (τ := τ) (main (F := F))) ⟨m, fun _ => 0, ρ⟩ (fun r => ∀ c : Dev nD,
      r.2.mem ((c.tc : Thread nD τ).loc main_v42) = W8 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v42 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.ResultRun

end
-- ==== Proof.LayerSpec.lean ====
/-
  What one graph-convolution layer computes, as functions of whole arrays read index by index on the extended reals.

  A layer takes node features `x` (one row per node), a weight matrix `w`, the two degree norms and a bias:
    * `scaledProduct x w n`: row `r` of `x` times `w`, then scaled by the node's source norm `n r`:
      entry `(r, q)` is `(∑ k, x r k * w k q) * n r`;
    * between the two, the neighbour sum over the graph's edges (a gather and a scatter-add by the edge lists), which
      both programs spell with the same host operations and which is therefore never opened;
    * `scaleBias agg n b`: entry `(r, q)` is `agg r q * n r + b q` (the destination norm, the bias);
      `scaleBiasRelu` clamps that below at zero.
  The functions are generic in the number of rows, so that a block of rows of an array and the array itself are two
  instances of one function: a row of the result depends only on the same row of `x`, `agg` and `n`.
  A norm arrives as a column `[R, 1]` and a bias as a row `[1, N]`; `colOf` / `rowOf` are those two layouts of a vector.
-/
import Idealize.ShloMosaic.PureOps.Ideal
import Idealize.ShloMosaic.Lib.ValueIdx

noncomputable section

namespace Cert.LayerSpec

open Idealize.ShloMosaic Idealize.ShloMosaic.ValueIdx

/-- Entry `(r, q)` of the scaled product: `(∑ k, x r k * w k q) * n r`. -/
def scaledEntry {R K N : Nat} (x : (⟨2, ![R, K]⟩ : Shape).Idx → EReal) (w : (⟨2, ![K, N]⟩ : Shape).Idx → EReal)
    (n : (⟨2, ![R, 1]⟩ : Shape).Idx → EReal) (r : Fin R) (q : Fin N) : EReal :=
  (∑ k : Fin K, x (ix2 r k) * w (ix2 k q)) * n (ix2 r 0)

/-- The scaled product as an array. -/
def scaledProduct {R K N : Nat} (x : (⟨2, ![R, K]⟩ : Shape).Idx → EReal) (w : (⟨2, ![K, N]⟩ : Shape).Idx → EReal)
    (n : (⟨2, ![R, 1]⟩ : Shape).Idx → EReal) : (⟨2, ![R, N]⟩ : Shape).Idx → EReal :=
  fun i => scaledEntry x w n (i 0) (i 1)

/-- Entry `(r, q)` of the scaled, biased aggregate: `agg r q * n r + b q`. -/
def biasEntry {R N : Nat} (agg : (⟨2, ![R, N]⟩ : Shape).Idx → EReal) (n : (⟨2, ![R, 1]⟩ : Shape).Idx → EReal)
    (b : (⟨2, ![1, N]⟩ : Shape).Idx → EReal) (r : Fin R) (q : Fin N) : EReal :=
  agg (ix2 r q) * n (ix2 r 0) + b (ix2 0 q)

/-- The scaled, biased aggregate as an array. -/
def scaleBias {R N : Nat} (agg : (⟨2, ![R, N]⟩ : Shape).Idx → EReal) (n : (⟨2, ![R, 1]⟩ : Shape).Idx → EReal)
    (b : (⟨2, ![1, N]⟩ : Shape).Idx → EReal) : (⟨2, ![R, N]⟩ : Shape).Idx → EReal :=
  fun i => biasEntry agg n b (i 0) (i 1)

/-- The same clamped below at the word `0x00000000` (zero). -/
def scaleBiasRelu {R N : Nat} (agg : (⟨2, ![R, N]⟩ : Shape).Idx → EReal) (n : (⟨2, ![R, 1]⟩ : Shape).Idx → EReal)
    (b : (⟨2, ![1, N]⟩ : Shape).Idx → EReal) : (⟨2, ![R, N]⟩ : Shape).Idx → EReal :=
  fun i => max (biasEntry agg n b (i 0) (i 1)) (Ideal.ofBits .f32 0x00000000#32)

/-- A vector laid out as a column `[R, 1]`. -/
def colOf {R : Nat} (v : (⟨1, ![R]⟩ : Shape).Idx → EReal) : (⟨2, ![R, 1]⟩ : Shape).Idx → EReal :=
  fun i => v (ix1 (i 0))

/-- A vector laid out as a row `[1, N]`. -/
def rowOf {N : Nat} (v : (⟨1, ![N]⟩ : Shape).Idx → EReal) : (⟨2, ![1, N]⟩ : Shape).Idx → EReal :=
  fun i => v (ix1 (i 1))

theorem scaledProduct_apply {R K N : Nat} (x : (⟨2, ![R, K]⟩ : Shape).Idx → EReal) (w : (⟨2, ![K, N]⟩ : Shape).Idx → EReal)
    (n : (⟨2, ![R, 1]⟩ : Shape).Idx → EReal) (r : Fin R) (q : Fin N) :
    scaledProduct x w n (ix2 r q) = (∑ k : Fin K, x (ix2 r k) * w (ix2 k q)) * n (ix2 r 0) := rfl

theorem scaleBias_apply {R N : Nat} (agg : (⟨2, ![R, N]⟩ : Shape).Idx → EReal) (n : (⟨2, ![R, 1]⟩ : Shape).Idx → EReal)
    (b : (⟨2, ![1, N]⟩ : Shape).Idx → EReal) (r : Fin R) (q : Fin N) :
    scaleBias agg n b (ix2 r q) = agg (ix2 r q) * n (ix2 r 0) + b (ix2 0 q) := rfl

theorem scaleBiasRelu_apply {R N : Nat} (agg : (⟨2, ![R, N]⟩ : Shape).Idx → EReal) (n : (⟨2, ![R, 1]⟩ : Shape).Idx → EReal)
    (b : (⟨2, ![1, N]⟩ : Shape).Idx → EReal) (r : Fin R) (q : Fin N) :
    scaleBiasRelu agg n b (ix2 r q) = max (agg (ix2 r q) * n (ix2 r 0) + b (ix2 0 q)) (Ideal.ofBits .f32 0x00000000#32) := rfl

theorem colOf_apply {R : Nat} (v : (⟨1, ![R]⟩ : Shape).Idx → EReal) (r : Fin R) (z : Fin 1) : colOf v (ix2 r z) = v (ix1 r) := rfl

theorem rowOf_apply {N : Nat} (v : (⟨1, ![N]⟩ : Shape).Idx → EReal) (z : Fin 1) (q : Fin N) : rowOf v (ix2 z q) = v (ix1 q) := rfl

end Cert.LayerSpec

end
-- ==== Proof.GcnSpec.lean ====
/-
  The two-layer graph convolution as ONE function of the seven argument arrays, on the extended reals.

  With `ns = rsqrt (max outdeg 1)` and `nd = rsqrt (max indeg 1)` the degree norms (host stages both programs share,
  taken here as the reference's own stages `val_main_v9`, `val_main_v12`), and `edgeSum h` the sum over the graph's
  edges of the source node's row into the destination node's row (a gather by the source list and a scatter-add by the
  destination list — the same host operations in both programs, so the function is named and never opened):

      layer 1   h1  = max (edgeSum (x W1 · ns) · nd + b1) 0
      layer 2   out =      edgeSum (h1 W2 · ns) · nd + b2

  where `x W · ns` is `LayerSpec.scaledProduct` and `agg · nd + b` is `LayerSpec.scaleBias`.
-/
import proofs.«140253_j16192026706523_1_alg».proof.Proof.Gen.ReferenceIdeal.Read
import proofs.«140253_j16192026706523_1_alg».proof.Proof.LayerSpec

noncomputable section

namespace Cert.GcnSpec

open Idealize.ShloMosaic Cert.ReferenceIdeal Cert.ReferenceIdeal.Read Cert.LayerSpec

/-- The neighbour sum of 128-column rows along the edges: row `d` of the result is the sum, over the edges into `d`,
    of the source node's row of `h` (source list `x1`, destination list `x2`). -/
def edgeSum128 (h : (⟨S50000x128, .f32⟩ : BufTy).Contents (Elt Ideal)) (x1 x2 : (⟨S1600000, .i32⟩ : BufTy).Contents (Elt Ideal)) :
    (⟨S50000x128, .f32⟩ : BufTy).Contents (Elt Ideal) :=
  Host.scatterAdd (F := Ideal) scatter_S50000x128_S1600000x1_S1600000x128_1_0_0_1 (val_main_v24 (F := Ideal)) (val_main_v25 (F := Ideal) x2)
    (Host.gather (α := Ideal .f32) gather_S50000x128_S1600000x1_S1600000x128_1_0_n_n_0_1_1128 h (val_main_v22 (F := Ideal) x1))

/-- The same for 40-column rows. -/
def edgeSum40 (h : (⟨S50000x40, .f32⟩ : BufTy).Contents (Elt Ideal)) (x1 x2 : (⟨S1600000, .i32⟩ : BufTy).Contents (Elt Ideal)) :
    (⟨S50000x40, .f32⟩ : BufTy).Contents (Elt Ideal) :=
  Host.scatterAdd (F := Ideal) scatter_S50000x40_S1600000x1_S1600000x40_1_0_0_1 (val_main_v45 (F := Ideal)) (val_main_v46 (F := Ideal) x2)
    (Host.gather (α := Ideal .f32) gather_S50000x40_S1600000x1_S1600000x40_1_0_n_n_0_1_140 h (val_main_v43 (F := Ideal) x1))

/-- The source norm as a column. -/
def srcNorm (x1 : (⟨S1600000, .i32⟩ : BufTy).Contents (Elt Ideal)) : (⟨S50000x1, .f32⟩ : BufTy).Contents (Elt Ideal) :=
  colOf (val_main_v9 (F := Ideal) x1)

/-- The destination norm as a column. -/
def dstNorm (x2 : (⟨S1600000, .i32⟩ : BufTy).Contents (Elt Ideal)) : (⟨S50000x1, .f32⟩ : BufTy).Contents (Elt Ideal) :=
  colOf (val_main_v12 (F := Ideal) x2)

/-- Layer 1 before the neighbour sum. -/
def pre1 (x0 : (⟨S50000x128, .f32⟩ : BufTy).Contents (Elt Ideal)) (x1 : (⟨S1600000, .i32⟩ : BufTy).Contents (Elt Ideal))
    (x3 : (⟨S128x128, .f32⟩ : BufTy).Contents (Elt Ideal)) : (⟨S50000x128, .f32⟩ : BufTy).Contents (Elt Ideal) :=
  scaledProduct x0 x3 (srcNorm x1)

/-- Layer 1. -/
def layer1 (x0 : (⟨S50000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal)) :
    (⟨S50000x128, .f32⟩ : BufTy).Contents (Elt Ideal) :=
  scaleBiasRelu (edgeSum128 (pre1 x0 x1 x3) x1 x2) (dstNorm x2) (rowOf x4)

/-- Layer 2 before the neighbour sum. -/
def pre2 (x0 : (⟨S50000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal))
    (x5 : (⟨S128x40, .f32⟩ : BufTy).Contents (Elt Ideal)) : (⟨S50000x40, .f32⟩ : BufTy).Contents (Elt Ideal) :=
  scaledProduct (layer1 x0 x1 x2 x3 x4) x5 (srcNorm x1)

/-- The network's result. -/
def out (x0 : (⟨S50000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal))
    (x5 : (⟨S128x40, .f32⟩ : BufTy).Contents (Elt Ideal)) (x6 : (⟨S40, .f32⟩ : BufTy).Contents (Elt Ideal)) :
    (⟨S50000x40, .f32⟩ : BufTy).Contents (Elt Ideal) :=
  scaleBias (edgeSum40 (pre2 x0 x1 x2 x3 x4 x5) x1 x2) (dstNorm x2) (rowOf x6)

/-- The reference's neighbour sums are `edgeSum` of its products (its stages unfolded one level). -/
theorem ref_v26 (x0 : (⟨S50000x128, .f32⟩ : BufTy).Contents (Elt Ideal)) (x1 x2 : (⟨S1600000, .i32⟩ : BufTy).Contents (Elt Ideal))
    (x3 : (⟨S128x128, .f32⟩ : BufTy).Contents (Elt Ideal)) :
    val_main_v26 (F := Ideal) x0 x1 x2 x3 = edgeSum128 (val_main_v16 (F := Ideal) x0 x1 x3) x1 x2 := by
  unfold val_main_v26 val_main_v23 edgeSum128; rfl

theorem ref_v47 (x0 : (⟨S50000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal))
    (x5 : (⟨S128x40, .f32⟩ : BufTy).Contents (Elt Ideal)) :
    val_main_v47 (F := Ideal) x0 x1 x2 x3 x4 x5 = edgeSum40 (val_main_v37 (F := Ideal) x0 x1 x2 x3 x4 x5) x1 x2 := by
  unfold val_main_v47 val_main_v44 edgeSum40; rfl

end Cert.GcnSpec

end
-- ==== Proof.Layouts.lean ====
/-
  Two layouts of a vector.  A `reshape` keeps the row-major order of the elements, so a vector of `R` entries
  reshaped to `[R, 1]` is the column whose entry `(r, 0)` is entry `r` (position `r * 1 + 0 = r`), and a vector of
  `N` entries reshaped to `[1, N]` is the row whose entry `(0, q)` is entry `q` (position `0 * N + q = q`).
-/
import proofs.«140253_j16192026706523_1_alg».proof.Proof.LayerSpec
import Idealize.ShloMosaic.Lib.Pipeline.Value

noncomputable section

namespace Cert.LayerSpec

open Idealize.ShloMosaic Idealize.ShloMosaic.ValueIdx

/-- A vector reshaped to a column is `colOf` of it. -/
theorem reshape_col {R : Nat} (v : (⟨1, ![R]⟩ : Shape).Idx → EReal)
    (h : (⟨1, ![R]⟩ : Shape).ShapeCasts (⟨2, ![R, 1]⟩ : Shape)) :
    shapeCast (⟨2, ![R, 1]⟩ : Shape) v h = colOf v := by
  funext i
  refine shapeCast_apply v h i (ix1 (i 0)) ?_
  rw [Shape.rowMajor_val_one, Shape.rowMajor_val_two]
  have h1 : (i 1).val < 1 := (i 1).isLt
  show (i 0).val = (i 0).val * 1 + (i 1).val
  omega

/-- A vector reshaped to a row is `rowOf` of it. -/
theorem reshape_row {N : Nat} (v : (⟨1, ![N]⟩ : Shape).Idx → EReal)
    (h : (⟨1, ![N]⟩ : Shape).ShapeCasts (⟨2, ![1, N]⟩ : Shape)) :
    shapeCast (⟨2, ![1, N]⟩ : Shape) v h = rowOf v := by
  funext i
  refine shapeCast_apply v h i (ix1 (i 1)) ?_
  rw [Shape.rowMajor_val_one, Shape.rowMajor_val_two]
  have h0 : (i 0).val < 1 := (i 0).isLt
  show (i 1).val = (i 0).val * N + (i 1).val
  have : (i 0).val = 0 := by omega
  rw [this]; omega

end Cert.LayerSpec

end
-- ==== Proof.FoldHost.lean ====
/-
  The idealized kernel's host stretches, read back.

  The program is four stretches of host operations alternating with four pipelined regions.  The buffer contents at the
  boundaries are a fold from the launch memory: `W1` after the first stretch, `W2` after region 0, … , `W8` after
  region 3.  This module reads the ODD boundaries (after a stretch) from the even ones:
    * a buffer the stretch does not write keeps its contents (`keep0` … `keep3`: the stretch's written buffers as a
      literal list, membership decided over references);
    * the buffers a later region or stretch consumes, as functions of the previous boundary's contents:
      stretch 0 computes the two degree norms (the same host stages as the reference's, met term for term) and lays
      the source norm out as a column; stretches 1 and 3 compute the neighbour sum along the edges of the region's
      output (`edgeSum`, the reference's own operations) and lay out the destination norm and the bias; stretch 2
      lays the source norm out again.
-/
import proofs.«140253_j16192026706523_1_alg».proof.Proof.Gen.KernelIdeal.Frame
import proofs.«140253_j16192026706523_1_alg».proof.Proof.GcnSpec
import proofs.«140253_j16192026706523_1_alg».proof.Proof.Layouts
import Idealize.ShloMosaic.Lib.StableHlo.Run

set_option maxRecDepth 16384

noncomputable section

namespace Cert.KernelIdeal.Fold

open Cert.KernelIdeal Cert.KernelIdeal.Gen Cert.LayerSpec Cert.GcnSpec
open Idealize.ShloMosaic Idealize.ShloMosaic.TcCoe Idealize.SL.Sem

/-! ## What each stretch writes -/

abbrev wr0 : List (Ref sig .tc) :=
  [main_cst, main_v0, main_cst_0, main_v1, main_v2, main_v3, main_cst_1, main_v4, main_v5, main_v6, main_cst_2, main_v7,
   main_v8, main_v9, main_cst_3, main_v10, main_v11, main_v12, main_v13]
abbrev wr1 : List (Ref sig .tc) :=
  [main_c, main_v15, main_v16, main_c_4, main_v17, main_v18, main_v19, main_v20, main_v21, main_cst_5, main_v22, main_v23,
   main_v24, main_v25, main_v26]
abbrev wr2 : List (Ref sig .tc) := [main_v28]
abbrev wr3 : List (Ref sig .tc) :=
  [main_c_6, main_v30, main_v31, main_c_7, main_v32, main_v33, main_v34, main_v35, main_v36, main_cst_8, main_v37, main_v38,
   main_v39, main_v40, main_v41]

section Writes
variable {F : FTy → Type} [FloatOps F]

theorem writes0 : (hostOps0 : List (HloOp τ sig (Elt F))).Forall fun op => op.writes ⊆ (wr0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))

theorem writes1 : (hostOps1 : List (HloOp τ sig (Elt F))).Forall fun op => op.writes ⊆ (wr1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))

theorem writes2 : (hostOps2 : List (HloOp τ sig (Elt F))).Forall fun op => op.writes ⊆ (wr2.map (Proc.devRef (τ := τ) .tc)).toFinset := by
  simp only [hostOps2, List.Forall, StableHlo.reshape_writes, Finset.singleton_subset_iff]
  exact List.mem_toFinset.mpr (List.mem_map_of_mem (by decide))

theorem writes3 : (hostOps3 : List (HloOp τ sig (Elt F))).Forall fun op => op.writes ⊆ (wr3.map (Proc.devRef (τ := τ) .tc)).toFinset := by
  simp only [hostOps3, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))

end Writes

variable (m : (ℓ : Loc nD τ sig) → Buf (Elt Ideal) ℓ) (ρ : Dev nD → PrngReg) (c : Dev nD)

/-! ## A stretch keeps what it does not write -/

theorem keep0 (b : Ref sig .tc) (hb : b ∉ wr0) : W1 m ρ c (Proc.devRef .tc b) = W0 m ρ c (Proc.devRef .tc b) :=
  StableHlo.after_of_writes_sub hostOps0 (W0 m ρ c) writes0 hb
theorem keep1 (b : Ref sig .tc) (hb : b ∉ wr1) : W3 m ρ c (Proc.devRef .tc b) = W2 m ρ c (Proc.devRef .tc b) :=
  StableHlo.after_of_writes_sub hostOps1 (W2 m ρ c) writes1 hb
theorem keep2 (b : Ref sig .tc) (hb : b ∉ wr2) : W5 m ρ c (Proc.devRef .tc b) = W4 m ρ c (Proc.devRef .tc b) :=
  StableHlo.after_of_writes_sub hostOps2 (W4 m ρ c) writes2 hb
theorem keep3 (b : Ref sig .tc) (hb : b ∉ wr3) : W7 m ρ c (Proc.devRef .tc b) = W6 m ρ c (Proc.devRef .tc b) :=
  StableHlo.after_of_writes_sub hostOps3 (W6 m ρ c) writes3 hb

/-! ## Stretch 0: the degree norms -/

/-- The source norm, as the reference's stage of the source list. -/
theorem W1_v9 : W1 m ρ c (Proc.devRef .tc main_v9)
    = Cert.ReferenceIdeal.Read.val_main_v9 (F := Ideal) (m ((c : Thread nD τ).loc main_arg1)) := by
  show StableHlo.after hostOps0 (W0 m ρ c) (Proc.devRef .tc main_v9) = _
  after_results_simp
  rfl

/-- The destination norm, as the reference's stage of the destination list. -/
theorem W1_v12 : W1 m ρ c (Proc.devRef .tc main_v12)
    = Cert.ReferenceIdeal.Read.val_main_v12 (F := Ideal) (m ((c : Thread nD τ).loc main_arg2)) := by
  show StableHlo.after hostOps0 (W0 m ρ c) (Proc.devRef .tc main_v12) = _
  after_results_simp
  rfl

/-- The source norm laid out as a column. -/
theorem W1_v13 : W1 m ρ c (Proc.devRef .tc main_v13) = srcNorm (m ((c : Thread nD τ).loc main_arg1)) := by
  show StableHlo.after hostOps0 (W0 m ρ c) (Proc.devRef .tc main_v13) = _
  after_results_simp
  exact (reshape_col _ _).trans rfl

/-! ## Stretch 1: the neighbour sum of region 0's output, the destination norm as a column, the first bias as a row -/

theorem W3_v24 : W3 m ρ c (Proc.devRef .tc main_v24)
    = edgeSum128 (W2 m ρ c (Proc.devRef .tc main_v14)) (W2 m ρ c (Proc.devRef .tc main_arg1)) (W2 m ρ c (Proc.devRef .tc main_arg2)) := by
  show StableHlo.after hostOps1 (W2 m ρ c) (Proc.devRef .tc main_v24) = _
  after_results_simp
  rfl

theorem W3_v25 : W3 m ρ c (Proc.devRef .tc main_v25) = colOf (W2 m ρ c (Proc.devRef .tc main_v12)) := by
  show StableHlo.after hostOps1 (W2 m ρ c) (Proc.devRef .tc main_v25) = _
  after_results_simp
  exact reshape_col _ _

theorem W3_v26 : W3 m ρ c (Proc.devRef .tc main_v26) = rowOf (W2 m ρ c (Proc.devRef .tc main_arg4)) := by
  show StableHlo.after hostOps1 (W2 m ρ c) (Proc.devRef .tc main_v26) = _
  after_results_simp
  exact reshape_row _ _

/-! ## Stretch 2: the source norm as a column again -/

theorem W5_v28 : W5 m ρ c (Proc.devRef .tc main_v28) = colOf (W4 m ρ c (Proc.devRef .tc main_v9)) := by
  show StableHlo.after hostOps2 (W4 m ρ c) (Proc.devRef .tc main_v28) = _
  after_results_simp
  exact reshape_col _ _

/-! ## Stretch 3: the neighbour sum of region 2's output, the destination norm as a column, the second bias as a row -/

theorem W7_v39 : W7 m ρ c (Proc.devRef .tc main_v39)
    = edgeSum40 (W6 m ρ c (Proc.devRef .tc main_v29)) (W6 m ρ c (Proc.devRef .tc main_arg1)) (W6 m ρ c (Proc.devRef .tc main_arg2)) := by
  show StableHlo.after hostOps3 (W6 m ρ c) (Proc.devRef .tc main_v39) = _
  after_results_simp
  rfl

theorem W7_v40 : W7 m ρ c (Proc.devRef .tc main_v40) = colOf (W6 m ρ c (Proc.devRef .tc main_v12)) := by
  show StableHlo.after hostOps3 (W6 m ρ c) (Proc.devRef .tc main_v40) = _
  after_results_simp
  exact reshape_col _ _

theorem W7_v41 : W7 m ρ c (Proc.devRef .tc main_v41) = rowOf (W6 m ρ c (Proc.devRef .tc main_arg6)) := by
  show StableHlo.after hostOps3 (W6 m ρ c) (Proc.devRef .tc main_v41) = _
  after_results_simp
  exact reshape_row _ _

end Cert.KernelIdeal.Fold

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.Region0.lean ====
/-
  The first matrix-product region: the whole output array as one function of the three input arrays.

  The region walks the node features in 25 blocks of 2000 rows. At each block it multiplies the block's rows by the whole
  weight matrix and scales every row by that row's source norm. A row of the result depends only on the same row of the
  features and of the norm column, and on the whole weight matrix; so the block a point writes is the same 2000 rows of
  `scaledProduct` of the whole arrays, and the 25 blocks together cover all 50000 rows.
-/
import proofs.«140253_j16192026706523_1_alg».proof.Proof.Gen.KernelIdeal.Frame
import proofs.«140253_j16192026706523_1_alg».proof.Proof.LayerSpec
import proofs.«140253_j16192026706523_1_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KernelIdeal.Region0

open Cert.KernelIdeal Cert.KernelIdeal.Gen Cert.LayerSpec Idealize.ShloMosaic Idealize.ShloMosaic.TcCoe Idealize.SL.Sem
open Idealize.ShloMosaic.ValueIdx
open Idealize.ShloMosaic.Pipeline (Dat)

/-! ## One block: the payload at an index -/

/-- A column `[a, 1]` broadcast to `[a, b]` reads, at `(p, c)`, the column's entry of row `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry `(p, q)` of what a point stores, from the three blocks it loaded: row `p` of the feature block against
    column `q` of the weights (the product into a zero accumulator is the plain sum over the contracted axis; the
    narrowing of the operands is the identity on the extended reals), times entry `p` of the norm block. -/
theorem payload_apply (x : Vec Ideal S2000x128 .f32) (w : Vec Ideal S128x128 .f32) (n : Vec Ideal S2000x1 .f32)
    (p : Fin 2000) (q : Fin 128) :
    k0_pay1 (F := Ideal) x w n (ix2 p q) = scaledEntry x w n p q := by
  have e1 : FloatOps.matmul (DotDims.plain 2000 128 128) none
      (truncf (F := Ideal) .bf16 x bitsLt_bf16_f32 : FVec Ideal S2000x128 .bf16)
      (truncf (F := Ideal) .bf16 w bitsLt_bf16_f32 : FVec Ideal S128x128 .bf16)
      (constant (F := Ideal) S2000x128 .f32 0x00000000#32) (ix2 p q)
      = ∑ k : Fin 128, x (ix2 p k) * w (ix2 k q) :=
    Cert.PlainDot.matmul_zero_apply 2000 128 128 (φ₁ := .bf16) (φ₂ := .bf16) none
      (truncf (F := Ideal) .bf16 x bitsLt_bf16_f32) (truncf (F := Ideal) .bf16 w bitsLt_bf16_f32) (ix2 p q)
  have e2 : broadcastTo S2000x128 (shapeCast S2000x1 n shapeCasts_S2000x1_S2000x1) broadcasts_S2000x1_S2000x128 (ix2 p q)
      = n (ix2 p (0 : Fin 1)) := by
    rw [shapeCast_self]
    exact broadcastTo_col_apply n broadcasts_S2000x1_S2000x128 p q
  unfold k0_pay1 scaledEntry
  exact congrArg₂ (· * ·) e1 e2

/-- The same entry when the three blocks are rows of whole arrays: if row `p` of the feature block is row `r` of the
    feature array, the weight block is the weight matrix, and entry `p` of the norm block is entry `r` of the norm
    column, then entry `(p, q)` of what the point stores is entry `(r, q)` of the scaled product of the whole arrays. -/
theorem block_entry (X : S50000x128.Idx → EReal) (W : S128x128.Idx → EReal) (Nn : S50000x1.Idx → EReal)
    (x : Vec Ideal S2000x128 .f32) (w : Vec Ideal S128x128 .f32) (n : Vec Ideal S2000x1 .f32)
    (p : Fin 2000) (q : Fin 128) (r : Fin 50000)
    (hx : ∀ k : Fin 128, x (ix2 p k) = X (ix2 r k))
    (hw : ∀ k : Fin 128, w (ix2 k q) = W (ix2 k q))
    (hn : n (ix2 p (0 : Fin 1)) = Nn (ix2 r (0 : Fin 1))) :
    k0_pay1 (F := Ideal) x w n (ix2 p q) = scaledProduct X W Nn (ix2 r q) := by
  rw [payload_apply, scaledProduct_apply]
  unfold scaledEntry
  rw [hn]
  exact congrArg (· * Nn (ix2 r (0 : Fin 1))) (Finset.sum_congr rfl fun k _ => by rw [hx k, hw k])

/-! ## From blocks to the array -/

theorem hz : (![0, 0] : Fin 2 → Nat) = fun _ => 0 := funext fun a => by fin_cases a <;> rfl

/-- The index maps, decided over the 25 grid points: the feature, norm and output windows sit on block row `t` at point
    `t` (and on block column 0), the weight window on its one block throughout. -/
theorem idx_facts : ∀ t : Fin cfg0.N,
    win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (0 : Fin 2) ≤ 24
    ∧ win0_3.index t (1 : Fin 2) = 0 :=
  (by decide +kernel : ∀ t : Fin grid0.N, _)

/-- Every one of the 25 block rows is some point's. -/
theorem idx_onto : ∀ q0 : Fin 25, ∃ t : Fin cfg0.N, win0_3.index t = ![q0.val, 0] :=
  (by decide +kernel : ∀ q0 : Fin 25, ∃ t : Fin grid0.N, win0_3.index t = ![q0.val, 0])

variable (V : (c : Dev nD) → (b : Ref sig .tc) → Buf (Elt Ideal) ((c : Thread nD τ).loc b))

/-- What point `t` writes back is block `t` of the scaled product of the whole arrays: entry `(p, q)` of the block is
    entry `(2000 t + p, q)` of the array, and it is computed from row `2000 t + p` of the features and of the norm. -/
theorem flushed_eq (c : Dev nD) (t : Fin cfg0.N) :
    (dat0 (F := Ideal) V c).flushed 3 t
      = ((cfg0.win 3).blk t).view.read (Elt Ideal) (scaledProduct (V c main_arg0) (V c main_arg3) (V c main_v13)) := by
  show (cfg0.win 3).cut (grid0.coords t) ((dat0 (F := Ideal) V c).after 3 t) = _
  rw [after0_3]
  unfold out0_3
  rw [View.canon_unit_zero hz]
  simp only [View.ld_unit_zero (S := S2000x128) hz, View.ld_unit_zero (S := S128x128) hz, View.ld_unit_zero (S := S2000x1) hz]
  obtain ⟨e00, e01, e10, e11, e20, e21, e30, e31⟩ := idx_facts t
  funext j
  obtain ⟨p, q, rfl⟩ : ∃ (p : Fin 2000) (q : Fin 128), j = ix2 p q := ⟨j 0, j 1, eq_ix2 j⟩
  have hr : win0_3.index t (0 : Fin 2) * 2000 + p.val < 50000 := by have := p.isLt; omega
  have hemb : (((cfg0.win 3).blk t).view.emb (ix2 p q) : S50000x128.Idx)
      = ix2 (⟨win0_3.index t (0 : Fin 2) * 2000 + p.val, hr⟩ : Fin 50000) q := by
    funext a; apply Fin.ext
    match a with
    | ⟨0, _⟩ => show win0_3.index t (0 : Fin 2) * 2000 + 1 * p.val = win0_3.index t (0 : Fin 2) * 2000 + p.val; omega
    | ⟨1, _⟩ => show win0_3.index t (1 : Fin 2) * 128 + 1 * q.val = q.val; omega
  show k0_pay1 (F := Ideal) (iblk0 V c 0 t) (iblk0 V c 1 t) (iblk0 V c 2 t) (ix2 p q)
      = scaledProduct (V c main_arg0) (V c main_arg3) (V c main_v13) (((cfg0.win 3).blk t).view.emb (ix2 p q))
  refine (block_entry (V c main_arg0) (V c main_arg3) (V c main_v13) (iblk0 V c 0 t) (iblk0 V c 1 t) (iblk0 V c 2 t) p q
    ⟨win0_3.index t (0 : Fin 2) * 2000 + p.val, hr⟩ (fun k => ?_) (fun k => ?_) ?_).trans
    (congrArg (scaledProduct (V c main_arg0) (V c main_arg3) (V c main_v13)) hemb.symm)
  · show V c main_arg0 (((cfg0.win 0).blk t).view.emb (ix2 p k)) = V c main_arg0 (ix2 ⟨win0_3.index t (0 : Fin 2) * 2000 + p.val, hr⟩ k)
    refine congrArg (V c main_arg0) ?_
    funext a; apply Fin.ext
    match a with
    | ⟨0, _⟩ => show win0_0.index t (0 : Fin 2) * 2000 + 1 * p.val = win0_3.index t (0 : Fin 2) * 2000 + p.val; omega
    | ⟨1, _⟩ => show win0_0.index t (1 : Fin 2) * 128 + 1 * k.val = k.val; omega
  · show V c main_arg3 (((cfg0.win 1).blk t).view.emb (ix2 k q)) = V c main_arg3 (ix2 k q)
    refine congrArg (V c main_arg3) ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  · show V c main_v13 (((cfg0.win 2).blk t).view.emb (ix2 p (0 : Fin 1))) = V c main_v13 (ix2 ⟨win0_3.index t (0 : Fin 2) * 2000 + p.val, hr⟩ (0 : Fin 1))
    refine congrArg (V c main_v13) ?_
    funext a; apply Fin.ext
    match a with
    | ⟨0, _⟩ => show win0_2.index t (0 : Fin 2) * 2000 + 1 * p.val = win0_3.index t (0 : Fin 2) * 2000 + p.val; omega
    | ⟨1, _⟩ => show win0_2.index t (1 : Fin 2) * 1 + 1 * 0 = 0; omega

/-- An index of the output array is in point `t`'s block iff each coordinate is in the block's range on its axis. -/
theorem mem_blk (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v14).slice (win0_3.rect t)).set ↔ _
  rw [View.set_slice_whole, Rect.mem_set_unit]
  exact Iff.rfl

/-- The 25 blocks cover the array: row `r` lies in the block of point `r / 2000`. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- THE OUTPUT ARRAY after the region: the scaled product of the feature array, the weight matrix and the norm column
    as the region finds them. -/
theorem value (c : Dev nD) :
    (dat0 (F := Ideal) V c).arrAt 3 cfg0.N = scaledProduct (V c main_arg0) (V c main_arg3) (V c main_v13) :=
  (dat0 (F := Ideal) V c).arrAt_eq_of_cover 3 (scaledProduct (V c main_arg0) (V c main_arg3) (V c main_v13))
    (fun t _ => flushed_eq V c t) cover

end Cert.KernelIdeal.Region0

end
-- ==== Proof.Region1.lean ====
/-
  The first layer's final step as one function of whole arrays.

  The region walks the 50000 rows of the aggregate in 25 blocks of 2000 rows. At each block it multiplies every entry of
  the aggregate by its row's norm, adds the bias of its column, clamps the sum below at zero, and writes the block of the
  result back. A row of the result reads only the same row of the aggregate and of the norm, and the bias is one row shared
  by all, so block `t` of the result is the restriction to rows `2000 t … 2000 t + 1999` of one function of the three
  whole arrays: entry `(r, q)` is `max (agg r q * n r + b q) 0`. The blocks cover every row (row `r` lies in block
  `r / 2000`), so the array after the region is that function.
-/
import proofs.«140253_j16192026706523_1_alg».proof.Proof.Gen.KernelIdeal.Frame
import proofs.«140253_j16192026706523_1_alg».proof.Proof.LayerSpec
import Idealize.ShloMosaic.Lib.Pipeline.Value
import Idealize.ShloMosaic.Lib.ValueIdx
import Idealize.ShloMosaic.Lib.ValueLayout

set_option maxRecDepth 16384

noncomputable section

namespace Cert.KernelIdeal.Region1

open Cert.KernelIdeal Cert.KernelIdeal.Gen Cert.LayerSpec Idealize.ShloMosaic Idealize.ShloMosaic.TcCoe Idealize.SL.Sem
open Idealize.ShloMosaic.ValueIdx
open Idealize.ShloMosaic.Pipeline (Dat)

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's payload at entry `(p, q)` of a block: the aggregate's entry times the row's norm, plus the bias of column `q`,
    clamped below at zero. -/
theorem pay_apply (b : Vec Ideal S1x128 .f32) (agg : Vec Ideal S2000x128 .f32) (n : Vec Ideal S2000x1 .f32) (p : Fin 2000) (q : Fin 128) :
    k1_pay1 b agg n (ix2 p q) = max (biasEntry agg n b p q) (Ideal.ofBits .f32 0x00000000#32) := by
  unfold k1_pay1
  simp only [shapeCast_self]
  show max (agg (ix2 p q) * broadcastTo S2000x128 n broadcasts_S2000x1_S2000x128 (ix2 p q)
      + broadcastTo S2000x128 b broadcasts_S1x128_S2000x128 (ix2 p q)) (Ideal.ofBits .f32 0x00000000#32) = _
  rw [broadcastTo_a1_ab_apply n broadcasts_S2000x1_S2000x128 p q, broadcastTo_1b_ab_apply b broadcasts_S1x128_S2000x128 p q]
  rfl

/-- Two entries of the layer's last step agree when the three entries they read agree. -/
theorem biasEntry_congr {R R' N N' : Nat} (agg : (⟨2, ![R, N]⟩ : Shape).Idx → EReal) (n : (⟨2, ![R, 1]⟩ : Shape).Idx → EReal)
    (b : (⟨2, ![1, N]⟩ : Shape).Idx → EReal) (agg' : (⟨2, ![R', N']⟩ : Shape).Idx → EReal) (n' : (⟨2, ![R', 1]⟩ : Shape).Idx → EReal)
    (b' : (⟨2, ![1, N']⟩ : Shape).Idx → EReal) (r : Fin R) (q : Fin N) (r' : Fin R') (q' : Fin N')
    (h1 : agg (ix2 r q) = agg' (ix2 r' q')) (h2 : n (ix2 r 0) = n' (ix2 r' 0)) (h3 : b (ix2 0 q) = b' (ix2 0 q')) :
    biasEntry agg n b r q = biasEntry agg' n' b' r' q' := by
  unfold biasEntry
  rw [h1, h2, h3]

theorem hz : (![0, 0] : Fin 2 → Nat) = fun _ => 0 := funext fun a => by fin_cases a <;> rfl

/-- The printed index maps, decided over the grid: at point `t` the aggregate's, the norm's and the output's blocks are
    the `t`-th blocks of rows, and the bias's block is the one it has. -/
theorem idx_facts : ∀ t : Fin cfg1.N, win1_3.index t (0 : Fin 2) = t.val ∧ win1_3.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0 :=
  (by decide +kernel : ∀ t : Fin grid1.N, _)

/-- What point `t` writes back is block `t` of the scaled, biased, clamped aggregate of the arrays as the region finds them. -/
theorem flushed_eq (V : (c : Dev nD) → (b : Ref sig .tc) → Buf (Elt Ideal) ((c : Thread nD τ).loc b)) (c : Dev nD) (t : Fin cfg1.N) :
    (dat1 (F := Ideal) V c).flushed 3 t
      = ((cfg1.win 3).blk t).view.read (Elt Ideal) (scaleBiasRelu (V c main_v24) (V c main_v25) (V c main_v26)) := by
  show (cfg1.win 3).cut (grid1.coords t) ((dat1 (F := Ideal) V c).after 3 t) = _
  rw [after1_3]
  unfold out1_3
  rw [View.canon_unit_zero hz]
  simp only [View.ld_unit_zero (S := S2000x128) hz, View.ld_unit_zero (S := S2000x1) hz, View.ld_unit_zero (S := S1x128) hz]
  obtain ⟨e30, e31, e00, e01, e10, e11, e20, e21⟩ := idx_facts t
  refine funext fun (j : S2000x128.Idx) => ?_
  obtain ⟨p, q, rfl⟩ : ∃ (p : Fin 2000) (q : Fin 128), j = ix2 p q := ⟨j 0, j 1, eq_ix2 j⟩
  have hp : p.val < 2000 := p.isLt
  have hq : q.val < 128 := q.isLt
  show k1_pay1 (iblk1 V c 2 t) (iblk1 V c 0 t) (iblk1 V c 1 t) (ix2 p q)
      = max (biasEntry (V c main_v24) (V c main_v25) (V c main_v26)
          (((cfg1.win 3).blk t).view.emb (ix2 p q) 0) (((cfg1.win 3).blk t).view.emb (ix2 p q) 1)) (Ideal.ofBits .f32 0x00000000#32)
  refine (pay_apply (iblk1 V c 2 t) (iblk1 V c 0 t) (iblk1 V c 1 t) p q).trans ?_
  refine congrArg (fun z => max z (Ideal.ofBits .f32 0x00000000#32)) ?_
  refine biasEntry_congr (iblk1 V c 0 t) (iblk1 V c 1 t) (iblk1 V c 2 t) (V c main_v24) (V c main_v25) (V c main_v26) p q
    (((cfg1.win 3).blk t).view.emb (ix2 p q) 0) (((cfg1.win 3).blk t).view.emb (ix2 p q) 1) ?_ ?_ ?_
  · show V c main_v24 (((cfg1.win 0).blk t).view.emb (ix2 p q)) = V c main_v24 _
    refine congrArg (V c main_v24) (funext fun a => Fin.ext ?_)
    match a with
    | ⟨0, _⟩ => show win1_0.index t (0 : Fin 2) * 2000 + 1 * p.val = win1_3.index t (0 : Fin 2) * 2000 + 1 * p.val; omega
    | ⟨1, _⟩ => show win1_0.index t (1 : Fin 2) * 128 + 1 * q.val = win1_3.index t (1 : Fin 2) * 128 + 1 * q.val; omega
  · show V c main_v25 (((cfg1.win 1).blk t).view.emb (ix2 p (0 : Fin 1))) = V c main_v25 _
    refine congrArg (V c main_v25) (funext fun a => Fin.ext ?_)
    match a with
    | ⟨0, _⟩ => show win1_1.index t (0 : Fin 2) * 2000 + 1 * p.val = win1_3.index t (0 : Fin 2) * 2000 + 1 * p.val; omega
    | ⟨1, _⟩ => show win1_1.index t (1 : Fin 2) * 1 + 1 * 0 = 0; omega
  · show V c main_v26 (((cfg1.win 2).blk t).view.emb (ix2 (0 : Fin 1) q)) = V c main_v26 _
    refine congrArg (V c main_v26) (funext fun a => Fin.ext ?_)
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega

/-- An index of the array is in point `t`'s block iff each coordinate is in the block's range on its axis. -/
theorem mem_blk (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v27).slice (win1_3.rect t)).set ↔ _
  rw [View.set_slice_whole, Rect.mem_set_unit]
  exact Iff.rfl

/-- Every row of the array is in some point's block: row `r` is in block `r / 2000`. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have ht : (i 0).val / 2000 < cfg1.N := by show (i 0).val / 2000 < 25; omega
  refine ⟨⟨(i 0).val / 2000, ht⟩, flush1_3 _, ?_⟩
  rw [mem_blk]
  obtain ⟨e30, e31, -⟩ := idx_facts ⟨(i 0).val / 2000, ht⟩
  have e30' : win1_3.index ⟨(i 0).val / 2000, ht⟩ (0 : Fin 2) = (i 0).val / 2000 := e30
  intro a
  match a with
  | ⟨0, _⟩ =>
    show win1_3.index ⟨(i 0).val / 2000, _⟩ (0 : Fin 2) * 2000 ≤ (i 0).val ∧ (i 0).val < win1_3.index ⟨(i 0).val / 2000, _⟩ (0 : Fin 2) * 2000 + 2000
    omega
  | ⟨1, _⟩ =>
    show win1_3.index ⟨(i 0).val / 2000, _⟩ (1 : Fin 2) * 128 ≤ (i 1).val ∧ (i 1).val < win1_3.index ⟨(i 0).val / 2000, _⟩ (1 : Fin 2) * 128 + 128
    omega

/-- The output array after the region: the aggregate scaled row by row by the norm, plus the bias, clamped below at zero, of the three input arrays. -/
theorem value (V : (c : Dev nD) → (b : Ref sig .tc) → Buf (Elt Ideal) ((c : Thread nD τ).loc b)) (c : Dev nD) :
    (dat1 (F := Ideal) V c).arrAt 3 cfg1.N = scaleBiasRelu (V c main_v24) (V c main_v25) (V c main_v26) :=
  (dat1 (F := Ideal) V c).arrAt_eq_of_cover 3 (scaleBiasRelu (V c main_v24) (V c main_v25) (V c main_v26))
    (fun t _ => flushed_eq V c t) cover

end Cert.KernelIdeal.Region1

end
-- ==== Proof.Region2.lean ====
/-
  The second matrix-product region: the whole output array as one function of the three input arrays.

  The region walks the hidden features in 25 blocks of 2000 rows. At each block it multiplies the block's rows by the
  whole 128 × 40 weight matrix and scales every row by that row's source norm. A row of the result depends only on the
  same row of the features and of the norm column, and on the whole weight matrix; so the block a point writes is the same
  2000 rows of `scaledProduct` of the whole arrays, and the 25 blocks together cover all 50000 rows.
-/
import proofs.«140253_j16192026706523_1_alg».proof.Proof.Gen.KernelIdeal.Frame
import proofs.«140253_j16192026706523_1_alg».proof.Proof.LayerSpec
import proofs.«140253_j16192026706523_1_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KernelIdeal.Region2

open Cert.KernelIdeal Cert.KernelIdeal.Gen Cert.LayerSpec Idealize.ShloMosaic Idealize.ShloMosaic.TcCoe Idealize.SL.Sem
open Idealize.ShloMosaic.ValueIdx
open Idealize.ShloMosaic.Pipeline (Dat)

/-! ## One block: the payload at an index -/

/-- A column `[a, 1]` broadcast to `[a, b]` reads, at `(p, c)`, the column's entry of row `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry `(p, q)` of what a point stores, from the three blocks it loaded: row `p` of the feature block (its cast to
    its own shape is the identity) against column `q` of the weights (the product into a zero accumulator is the plain
    sum over the contracted axis; the narrowing of the operands is the identity on the extended reals), times entry `p`
    of the norm block. -/
theorem payload_apply (x : Vec Ideal S2000x128 .f32) (w : Vec Ideal S128x40 .f32) (n : Vec Ideal S2000x1 .f32)
    (p : Fin 2000) (q : Fin 40) :
    k2_pay1 (F := Ideal) x w n (ix2 p q) = scaledEntry x w n p q := by
  have e0 : shapeCast S2000x128 x shapeCasts_S2000x128_S2000x128 = x := shapeCast_self x _
  have e1 : FloatOps.matmul (DotDims.plain 2000 128 40) none
      (truncf (F := Ideal) .bf16 (shapeCast S2000x128 x shapeCasts_S2000x128_S2000x128) bitsLt_bf16_f32 : FVec Ideal S2000x128 .bf16)
      (truncf (F := Ideal) .bf16 w bitsLt_bf16_f32 : FVec Ideal S128x40 .bf16)
      (constant (F := Ideal) S2000x40 .f32 0x00000000#32) (ix2 p q)
      = ∑ k : Fin 128, x (ix2 p k) * w (ix2 k q) := by
    rw [e0]
    exact Cert.PlainDot.matmul_zero_apply 2000 128 40 (φ₁ := .bf16) (φ₂ := .bf16) none
      (truncf (F := Ideal) .bf16 x bitsLt_bf16_f32) (truncf (F := Ideal) .bf16 w bitsLt_bf16_f32) (ix2 p q)
  have e2 : broadcastTo S2000x40 (shapeCast S2000x1 n shapeCasts_S2000x1_S2000x1) broadcasts_S2000x1_S2000x40 (ix2 p q)
      = n (ix2 p (0 : Fin 1)) := by
    rw [shapeCast_self]
    exact broadcastTo_col_apply n broadcasts_S2000x1_S2000x40 p q
  unfold k2_pay1 scaledEntry
  exact congrArg₂ (· * ·) e1 e2

/-- The same entry when the three blocks are rows of whole arrays: if row `p` of the feature block is row `r` of the
    feature array, the weight block is the weight matrix, and entry `p` of the norm block is entry `r` of the norm
    column, then entry `(p, q)` of what the point stores is entry `(r, q)` of the scaled product of the whole arrays. -/
theorem block_entry (X : S50000x128.Idx → EReal) (W : S128x40.Idx → EReal) (Nn : S50000x1.Idx → EReal)
    (x : Vec Ideal S2000x128 .f32) (w : Vec Ideal S128x40 .f32) (n : Vec Ideal S2000x1 .f32)
    (p : Fin 2000) (q : Fin 40) (r : Fin 50000)
    (hx : ∀ k : Fin 128, x (ix2 p k) = X (ix2 r k))
    (hw : ∀ k : Fin 128, w (ix2 k q) = W (ix2 k q))
    (hn : n (ix2 p (0 : Fin 1)) = Nn (ix2 r (0 : Fin 1))) :
    k2_pay1 (F := Ideal) x w n (ix2 p q) = scaledProduct X W Nn (ix2 r q) := by
  rw [payload_apply, scaledProduct_apply]
  unfold scaledEntry
  rw [hn]
  exact congrArg (· * Nn (ix2 r (0 : Fin 1))) (Finset.sum_congr rfl fun k _ => by rw [hx k, hw k])

/-! ## From blocks to the array -/

theorem hz : (![0, 0] : Fin 2 → Nat) = fun _ => 0 := funext fun a => by fin_cases a <;> rfl

/-- The index maps, decided over the 25 grid points: the feature, norm and output windows sit on block row `t` at point
    `t` (and on block column 0), the weight window on its one block throughout. -/
theorem idx_facts : ∀ t : Fin cfg2.N,
    win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = win2_3.index t (0 : Fin 2)
    ∧ win2_2.index t (1 : Fin 2) = 0
    ∧ win2_3.index t (0 : Fin 2) ≤ 24
    ∧ win2_3.index t (1 : Fin 2) = 0 :=
  (by decide +kernel : ∀ t : Fin grid2.N, _)

/-- Every one of the 25 block rows is some point's. -/
theorem idx_onto : ∀ q0 : Fin 25, ∃ t : Fin cfg2.N, win2_3.index t = ![q0.val, 0] :=
  (by decide +kernel : ∀ q0 : Fin 25, ∃ t : Fin grid2.N, win2_3.index t = ![q0.val, 0])

variable (V : (c : Dev nD) → (b : Ref sig .tc) → Buf (Elt Ideal) ((c : Thread nD τ).loc b))

/-- What point `t` writes back is block `t` of the scaled product of the whole arrays: entry `(p, q)` of the block is
    entry `(2000 t + p, q)` of the array, and it is computed from row `2000 t + p` of the features and of the norm. -/
theorem flushed_eq (c : Dev nD) (t : Fin cfg2.N) :
    (dat2 (F := Ideal) V c).flushed 3 t
      = ((cfg2.win 3).blk t).view.read (Elt Ideal) (scaledProduct (V c main_v27) (V c main_arg5) (V c main_v28)) := by
  show (cfg2.win 3).cut (grid2.coords t) ((dat2 (F := Ideal) V c).after 3 t) = _
  rw [after2_3]
  unfold out2_3
  rw [View.canon_unit_zero hz]
  simp only [View.ld_unit_zero (S := S2000x128) hz, View.ld_unit_zero (S := S128x40) hz, View.ld_unit_zero (S := S2000x1) hz]
  obtain ⟨e00, e01, e10, e11, e20, e21, e30, e31⟩ := idx_facts t
  funext j
  obtain ⟨p, q, rfl⟩ : ∃ (p : Fin 2000) (q : Fin 40), j = ix2 p q := ⟨j 0, j 1, eq_ix2 j⟩
  have hr : win2_3.index t (0 : Fin 2) * 2000 + p.val < 50000 := by have := p.isLt; omega
  have hemb : (((cfg2.win 3).blk t).view.emb (ix2 p q) : S50000x40.Idx)
      = ix2 (⟨win2_3.index t (0 : Fin 2) * 2000 + p.val, hr⟩ : Fin 50000) q := by
    funext a; apply Fin.ext
    match a with
    | ⟨0, _⟩ => show win2_3.index t (0 : Fin 2) * 2000 + 1 * p.val = win2_3.index t (0 : Fin 2) * 2000 + p.val; omega
    | ⟨1, _⟩ => show win2_3.index t (1 : Fin 2) * 40 + 1 * q.val = q.val; omega
  show k2_pay1 (F := Ideal) (iblk2 V c 0 t) (iblk2 V c 1 t) (iblk2 V c 2 t) (ix2 p q)
      = scaledProduct (V c main_v27) (V c main_arg5) (V c main_v28) (((cfg2.win 3).blk t).view.emb (ix2 p q))
  refine (block_entry (V c main_v27) (V c main_arg5) (V c main_v28) (iblk2 V c 0 t) (iblk2 V c 1 t) (iblk2 V c 2 t) p q
    ⟨win2_3.index t (0 : Fin 2) * 2000 + p.val, hr⟩ (fun k => ?_) (fun k => ?_) ?_).trans
    (congrArg (scaledProduct (V c main_v27) (V c main_arg5) (V c main_v28)) hemb.symm)
  · show V c main_v27 (((cfg2.win 0).blk t).view.emb (ix2 p k)) = V c main_v27 (ix2 ⟨win2_3.index t (0 : Fin 2) * 2000 + p.val, hr⟩ k)
    refine congrArg (V c main_v27) ?_
    funext a; apply Fin.ext
    match a with
    | ⟨0, _⟩ => show win2_0.index t (0 : Fin 2) * 2000 + 1 * p.val = win2_3.index t (0 : Fin 2) * 2000 + p.val; omega
    | ⟨1, _⟩ => show win2_0.index t (1 : Fin 2) * 128 + 1 * k.val = k.val; omega
  · show V c main_arg5 (((cfg2.win 1).blk t).view.emb (ix2 k q)) = V c main_arg5 (ix2 k q)
    refine congrArg (V c main_arg5) ?_
    funext a; apply Fin.ext
    match a with
    | ⟨0, _⟩ => show win2_1.index t (0 : Fin 2) * 128 + 1 * k.val = k.val; omega
    | ⟨1, _⟩ => show win2_1.index t (1 : Fin 2) * 40 + 1 * q.val = q.val; omega
  · show V c main_v28 (((cfg2.win 2).blk t).view.emb (ix2 p (0 : Fin 1))) = V c main_v28 (ix2 ⟨win2_3.index t (0 : Fin 2) * 2000 + p.val, hr⟩ (0 : Fin 1))
    refine congrArg (V c main_v28) ?_
    funext a; apply Fin.ext
    match a with
    | ⟨0, _⟩ => show win2_2.index t (0 : Fin 2) * 2000 + 1 * p.val = win2_3.index t (0 : Fin 2) * 2000 + p.val; omega
    | ⟨1, _⟩ => show win2_2.index t (1 : Fin 2) * 1 + 1 * 0 = 0; omega

/-- An index of the output array is in point `t`'s block iff each coordinate is in the block's range on its axis. -/
theorem mem_blk (t : Fin cfg2.N) (i : S50000x40.Idx) :
    i ∈ ((cfg2.win 3).blk t).view.set ↔ ∀ a : Fin 2, win2_3.index t a * S2000x40.size a ≤ (i a).val ∧ (i a).val < win2_3.index t a * S2000x40.size a + S2000x40.size a := by
  show i ∈ ((View.whole main_v29).slice (win2_3.rect t)).set ↔ _
  rw [View.set_slice_whole, Rect.mem_set_unit]
  exact Iff.rfl

/-- The 25 blocks cover the array: row `r` lies in the block of point `r / 2000`. -/
theorem cover (i : S50000x40.Idx) : ∃ t : Fin cfg2.N, (cfg2.win 3).flush t = true ∧ i ∈ ((cfg2.win 3).blk t).view.set := by
  have hi0 : (i 0).val < 50000 := (i 0).isLt
  have hi1 : (i 1).val < 40 := (i 1).isLt
  obtain ⟨t, ht⟩ := idx_onto ⟨(i 0).val / 2000, by omega⟩
  have q0 : win2_3.index t (0 : Fin 2) = (i 0).val / 2000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 40 ≤ (i 1).val ∧ (i 1).val < win2_3.index t (1 : Fin 2) * 40 + 40; omega

/-- THE OUTPUT ARRAY after the region: the scaled product of the feature array, the weight matrix and the norm column
    as the region finds them. -/
theorem value (c : Dev nD) :
    (dat2 (F := Ideal) V c).arrAt 3 cfg2.N = scaledProduct (V c main_v27) (V c main_arg5) (V c main_v28) :=
  (dat2 (F := Ideal) V c).arrAt_eq_of_cover 3 (scaledProduct (V c main_v27) (V c main_arg5) (V c main_v28))
    (fun t _ => flushed_eq V c t) cover

end Cert.KernelIdeal.Region2

end
-- ==== Proof.Region3.lean ====
/-
  The last layer's final step as one function of whole arrays.

  The region walks the 50000 rows of the aggregate in 25 blocks of 2000 rows. At each block it multiplies every entry of
  the aggregate by its row's norm and adds the bias of its column, and writes the block of the result back. A row of the
  result reads only the same row of the aggregate and of the norm, and the bias is one row shared by all, so block `t` of
  the result is the restriction to rows `2000 t … 2000 t + 1999` of one function of the three whole arrays: entry
  `(r, q)` is `agg r q * n r + b q`. The blocks cover every row (row `r` lies in block `r / 2000`), so the array
  after the region is that function.
-/
import proofs.«140253_j16192026706523_1_alg».proof.Proof.Gen.KernelIdeal.Frame
import proofs.«140253_j16192026706523_1_alg».proof.Proof.LayerSpec
import Idealize.ShloMosaic.Lib.Pipeline.Value
import Idealize.ShloMosaic.Lib.ValueIdx
import Idealize.ShloMosaic.Lib.ValueLayout

set_option maxRecDepth 16384

noncomputable section

namespace Cert.KernelIdeal.Region3

open Cert.KernelIdeal Cert.KernelIdeal.Gen Cert.LayerSpec Idealize.ShloMosaic Idealize.ShloMosaic.TcCoe Idealize.SL.Sem
open Idealize.ShloMosaic.ValueIdx
open Idealize.ShloMosaic.Pipeline (Dat)

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's payload at entry `(p, q)` of a block: the aggregate's entry times the row's norm, plus the bias of column `q`. -/
theorem pay_apply (b : Vec Ideal S1x40 .f32) (agg : Vec Ideal S2000x40 .f32) (n : Vec Ideal S2000x1 .f32) (p : Fin 2000) (q : Fin 40) :
    k3_pay1 b agg n (ix2 p q) = biasEntry agg n b p q := by
  unfold k3_pay1
  simp only [shapeCast_self]
  show agg (ix2 p q) * broadcastTo S2000x40 n broadcasts_S2000x1_S2000x40 (ix2 p q)
      + broadcastTo S2000x40 b broadcasts_S1x40_S2000x40 (ix2 p q) = _
  rw [broadcastTo_a1_ab_apply n broadcasts_S2000x1_S2000x40 p q, broadcastTo_1b_ab_apply b broadcasts_S1x40_S2000x40 p q]
  rfl

/-- Two entries of the layer's last step agree when the three entries they read agree. -/
theorem biasEntry_congr {R R' N N' : Nat} (agg : (⟨2, ![R, N]⟩ : Shape).Idx → EReal) (n : (⟨2, ![R, 1]⟩ : Shape).Idx → EReal)
    (b : (⟨2, ![1, N]⟩ : Shape).Idx → EReal) (agg' : (⟨2, ![R', N']⟩ : Shape).Idx → EReal) (n' : (⟨2, ![R', 1]⟩ : Shape).Idx → EReal)
    (b' : (⟨2, ![1, N']⟩ : Shape).Idx → EReal) (r : Fin R) (q : Fin N) (r' : Fin R') (q' : Fin N')
    (h1 : agg (ix2 r q) = agg' (ix2 r' q')) (h2 : n (ix2 r 0) = n' (ix2 r' 0)) (h3 : b (ix2 0 q) = b' (ix2 0 q')) :
    biasEntry agg n b r q = biasEntry agg' n' b' r' q' := by
  unfold biasEntry
  rw [h1, h2, h3]

theorem hz : (![0, 0] : Fin 2 → Nat) = fun _ => 0 := funext fun a => by fin_cases a <;> rfl

/-- The printed index maps, decided over the grid: at point `t` the aggregate's, the norm's and the output's blocks are
    the `t`-th blocks of rows, and the bias's block is the one it has. -/
theorem idx_facts : ∀ t : Fin cfg3.N, win3_3.index t (0 : Fin 2) = t.val ∧ win3_3.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0 :=
  (by decide +kernel : ∀ t : Fin grid3.N, _)

/-- What point `t` writes back is block `t` of the scaled, biased aggregate of the arrays as the region finds them. -/
theorem flushed_eq (V : (c : Dev nD) → (b : Ref sig .tc) → Buf (Elt Ideal) ((c : Thread nD τ).loc b)) (c : Dev nD) (t : Fin cfg3.N) :
    (dat3 (F := Ideal) V c).flushed 3 t
      = ((cfg3.win 3).blk t).view.read (Elt Ideal) (scaleBias (V c main_v39) (V c main_v40) (V c main_v41)) := by
  show (cfg3.win 3).cut (grid3.coords t) ((dat3 (F := Ideal) V c).after 3 t) = _
  rw [after3_3]
  unfold out3_3
  rw [View.canon_unit_zero hz]
  simp only [View.ld_unit_zero (S := S2000x40) hz, View.ld_unit_zero (S := S2000x1) hz, View.ld_unit_zero (S := S1x40) hz]
  obtain ⟨e30, e31, e00, e01, e10, e11, e20, e21⟩ := idx_facts t
  refine funext fun (j : S2000x40.Idx) => ?_
  obtain ⟨p, q, rfl⟩ : ∃ (p : Fin 2000) (q : Fin 40), j = ix2 p q := ⟨j 0, j 1, eq_ix2 j⟩
  have hp : p.val < 2000 := p.isLt
  have hq : q.val < 40 := q.isLt
  show k3_pay1 (iblk3 V c 2 t) (iblk3 V c 0 t) (iblk3 V c 1 t) (ix2 p q)
      = biasEntry (V c main_v39) (V c main_v40) (V c main_v41)
          (((cfg3.win 3).blk t).view.emb (ix2 p q) 0) (((cfg3.win 3).blk t).view.emb (ix2 p q) 1)
  refine (pay_apply (iblk3 V c 2 t) (iblk3 V c 0 t) (iblk3 V c 1 t) p q).trans ?_
  refine biasEntry_congr (iblk3 V c 0 t) (iblk3 V c 1 t) (iblk3 V c 2 t) (V c main_v39) (V c main_v40) (V c main_v41) p q
    (((cfg3.win 3).blk t).view.emb (ix2 p q) 0) (((cfg3.win 3).blk t).view.emb (ix2 p q) 1) ?_ ?_ ?_
  · show V c main_v39 (((cfg3.win 0).blk t).view.emb (ix2 p q)) = V c main_v39 _
    refine congrArg (V c main_v39) (funext fun a => Fin.ext ?_)
    match a with
    | ⟨0, _⟩ => show win3_0.index t (0 : Fin 2) * 2000 + 1 * p.val = win3_3.index t (0 : Fin 2) * 2000 + 1 * p.val; omega
    | ⟨1, _⟩ => show win3_0.index t (1 : Fin 2) * 40 + 1 * q.val = win3_3.index t (1 : Fin 2) * 40 + 1 * q.val; omega
  · show V c main_v40 (((cfg3.win 1).blk t).view.emb (ix2 p (0 : Fin 1))) = V c main_v40 _
    refine congrArg (V c main_v40) (funext fun a => Fin.ext ?_)
    match a with
    | ⟨0, _⟩ => show win3_1.index t (0 : Fin 2) * 2000 + 1 * p.val = win3_3.index t (0 : Fin 2) * 2000 + 1 * p.val; omega
    | ⟨1, _⟩ => show win3_1.index t (1 : Fin 2) * 1 + 1 * 0 = 0; omega
  · show V c main_v41 (((cfg3.win 2).blk t).view.emb (ix2 (0 : Fin 1) q)) = V c main_v41 _
    refine congrArg (V c main_v41) (funext fun a => Fin.ext ?_)
    match a with
    | ⟨0, _⟩ => show win3_2.index t (0 : Fin 2) * 1 + 1 * 0 = 0; omega
    | ⟨1, _⟩ => show win3_2.index t (1 : Fin 2) * 40 + 1 * q.val = win3_3.index t (1 : Fin 2) * 40 + 1 * q.val; omega

/-- An index of the array is in point `t`'s block iff each coordinate is in the block's range on its axis. -/
theorem mem_blk (t : Fin cfg3.N) (i : S50000x40.Idx) :
    i ∈ ((cfg3.win 3).blk t).view.set ↔ ∀ a : Fin 2, win3_3.index t a * S2000x40.size a ≤ (i a).val ∧ (i a).val < win3_3.index t a * S2000x40.size a + S2000x40.size a := by
  show i ∈ ((View.whole main_v42).slice (win3_3.rect t)).set ↔ _
  rw [View.set_slice_whole, Rect.mem_set_unit]
  exact Iff.rfl

/-- Every row of the array is in some point's block: row `r` is in block `r / 2000`. -/
theorem cover (i : S50000x40.Idx) : ∃ t : Fin cfg3.N, (cfg3.win 3).flush t = true ∧ i ∈ ((cfg3.win 3).blk t).view.set := by
  have hi0 : (i 0).val < 50000 := (i 0).isLt
  have hi1 : (i 1).val < 40 := (i 1).isLt
  have ht : (i 0).val / 2000 < cfg3.N := by show (i 0).val / 2000 < 25; omega
  refine ⟨⟨(i 0).val / 2000, ht⟩, flush3_3 _, ?_⟩
  rw [mem_blk]
  obtain ⟨e30, e31, -⟩ := idx_facts ⟨(i 0).val / 2000, ht⟩
  have e30' : win3_3.index ⟨(i 0).val / 2000, ht⟩ (0 : Fin 2) = (i 0).val / 2000 := e30
  intro a
  match a with
  | ⟨0, _⟩ =>
    show win3_3.index ⟨(i 0).val / 2000, _⟩ (0 : Fin 2) * 2000 ≤ (i 0).val ∧ (i 0).val < win3_3.index ⟨(i 0).val / 2000, _⟩ (0 : Fin 2) * 2000 + 2000
    omega
  | ⟨1, _⟩ =>
    show win3_3.index ⟨(i 0).val / 2000, _⟩ (1 : Fin 2) * 40 ≤ (i 1).val ∧ (i 1).val < win3_3.index ⟨(i 0).val / 2000, _⟩ (1 : Fin 2) * 40 + 40
    omega

/-- The output array after the region: the aggregate scaled row by row by the norm, plus the bias, of the three input arrays. -/
theorem value (V : (c : Dev nD) → (b : Ref sig .tc) → Buf (Elt Ideal) ((c : Thread nD τ).loc b)) (c : Dev nD) :
    (dat3 (F := Ideal) V c).arrAt 3 cfg3.N = scaleBias (V c main_v39) (V c main_v40) (V c main_v41) :=
  (dat3 (F := Ideal) V c).arrAt_eq_of_cover 3 (scaleBias (V c main_v39) (V c main_v40) (V c main_v41))
    (fun t _ => flushed_eq V c t) cover

end Cert.KernelIdeal.Region3

end
-- ==== Proof.FoldChain.lean ====
/-
  The idealized kernel's result as a function of its arguments: the fold read back boundary by boundary.

  `W1` … `W8` are the buffer contents after stretch 0, region 0, stretch 1, … , region 3.  Going forward from the
  launch memory, each buffer that a later step consumes is named at each boundary it crosses:
    * an argument array and the two degree norms are written once (or never) and then only read: a region that does not
      have the buffer among its arrays leaves it alone, and so does a stretch that does not write it;
    * a region's output array is the region's whole-array function (`Region0.value` … `Region3.value`) of its three
      input arrays at the region's entry;
    * a stretch's results are `FoldHost`'s functions of the previous boundary.
  Composed: the result buffer after region 3 holds `GcnSpec.out` of the seven arguments.
-/
import proofs.«140253_j16192026706523_1_alg».proof.Proof.FoldHost
import proofs.«140253_j16192026706523_1_alg».proof.Proof.Region0
import proofs.«140253_j16192026706523_1_alg».proof.Proof.Region1
import proofs.«140253_j16192026706523_1_alg».proof.Proof.Region2
import proofs.«140253_j16192026706523_1_alg».proof.Proof.Region3

set_option maxRecDepth 16384

noncomputable section

namespace Cert.KernelIdeal.Fold

open Cert.KernelIdeal Cert.KernelIdeal.Gen Cert.LayerSpec Cert.GcnSpec
open Idealize.ShloMosaic Idealize.ShloMosaic.TcCoe Idealize.SL.Sem

variable (m : (ℓ : Loc nD τ sig) → Buf (Elt Ideal) ℓ) (ρ : Dev nD → PrngReg) (c : Dev nD)

/-! ## After stretch 0 -/

theorem W1_arg0 : W1 m ρ c (Proc.devRef .tc main_arg0) = (m ((c : Thread nD τ).loc main_arg0)) := keep0 m ρ c main_arg0 (by decide)
theorem W1_arg1 : W1 m ρ c (Proc.devRef .tc main_arg1) = (m ((c : Thread nD τ).loc main_arg1)) := keep0 m ρ c main_arg1 (by decide)
theorem W1_arg2 : W1 m ρ c (Proc.devRef .tc main_arg2) = (m ((c : Thread nD τ).loc main_arg2)) := keep0 m ρ c main_arg2 (by decide)
theorem W1_arg3 : W1 m ρ c (Proc.devRef .tc main_arg3) = (m ((c : Thread nD τ).loc main_arg3)) := keep0 m ρ c main_arg3 (by decide)
theorem W1_arg4 : W1 m ρ c (Proc.devRef .tc main_arg4) = (m ((c : Thread nD τ).loc main_arg4)) := keep0 m ρ c main_arg4 (by decide)
theorem W1_arg5 : W1 m ρ c (Proc.devRef .tc main_arg5) = (m ((c : Thread nD τ).loc main_arg5)) := keep0 m ρ c main_arg5 (by decide)
theorem W1_arg6 : W1 m ρ c (Proc.devRef .tc main_arg6) = (m ((c : Thread nD τ).loc main_arg6)) := keep0 m ρ c main_arg6 (by decide)

/-! ## After region 0: its output is layer 1's scaled product -/

theorem W2_v9 : W2 m ρ c (Proc.devRef .tc main_v9) = (Cert.ReferenceIdeal.Read.val_main_v9 (F := Ideal) (m ((c : Thread nD τ).loc main_arg1))) := (W2_of_ne m ρ c main_v9 (by decide)).trans (W1_v9 m ρ c)
theorem W2_v12 : W2 m ρ c (Proc.devRef .tc main_v12) = (Cert.ReferenceIdeal.Read.val_main_v12 (F := Ideal) (m ((c : Thread nD τ).loc main_arg2))) := (W2_of_ne m ρ c main_v12 (by decide)).trans (W1_v12 m ρ c)
theorem W2_arg1 : W2 m ρ c (Proc.devRef .tc main_arg1) = (m ((c : Thread nD τ).loc main_arg1)) := (W2_of_ne m ρ c main_arg1 (by decide)).trans (W1_arg1 m ρ c)
theorem W2_arg2 : W2 m ρ c (Proc.devRef .tc main_arg2) = (m ((c : Thread nD τ).loc main_arg2)) := (W2_of_ne m ρ c main_arg2 (by decide)).trans (W1_arg2 m ρ c)
theorem W2_arg4 : W2 m ρ c (Proc.devRef .tc main_arg4) = (m ((c : Thread nD τ).loc main_arg4)) := (W2_of_ne m ρ c main_arg4 (by decide)).trans (W1_arg4 m ρ c)
theorem W2_arg5 : W2 m ρ c (Proc.devRef .tc main_arg5) = (m ((c : Thread nD τ).loc main_arg5)) := (W2_of_ne m ρ c main_arg5 (by decide)).trans (W1_arg5 m ρ c)
theorem W2_arg6 : W2 m ρ c (Proc.devRef .tc main_arg6) = (m ((c : Thread nD τ).loc main_arg6)) := (W2_of_ne m ρ c main_arg6 (by decide)).trans (W1_arg6 m ρ c)

theorem W2_v14 : W2 m ρ c (Proc.devRef .tc main_v14) = (pre1 (m ((c : Thread nD τ).loc main_arg0)) (m ((c : Thread nD τ).loc main_arg1)) (m ((c : Thread nD τ).loc main_arg3))) := by
  refine (W2_arr m ρ c 3).trans ((Region0.value (V1 m ρ) c).trans ?_)
  show scaledProduct (W1 m ρ c (Proc.devRef .tc main_arg0)) (W1 m ρ c (Proc.devRef .tc main_arg3)) (W1 m ρ c (Proc.devRef .tc main_v13)) = _
  rw [W1_arg0 m ρ c, W1_arg3 m ρ c, W1_v13 m ρ c]
  rfl

/-! ## After stretch 1: the neighbour sum, the destination norm, the first bias -/

theorem W3_v9 : W3 m ρ c (Proc.devRef .tc main_v9) = (Cert.ReferenceIdeal.Read.val_main_v9 (F := Ideal) (m ((c : Thread nD τ).loc main_arg1))) := (keep1 m ρ c main_v9 (by decide)).trans (W2_v9 m ρ c)
theorem W3_v12 : W3 m ρ c (Proc.devRef .tc main_v12) = (Cert.ReferenceIdeal.Read.val_main_v12 (F := Ideal) (m ((c : Thread nD τ).loc main_arg2))) := (keep1 m ρ c main_v12 (by decide)).trans (W2_v12 m ρ c)
theorem W3_arg1 : W3 m ρ c (Proc.devRef .tc main_arg1) = (m ((c : Thread nD τ).loc main_arg1)) := (keep1 m ρ c main_arg1 (by decide)).trans (W2_arg1 m ρ c)
theorem W3_arg2 : W3 m ρ c (Proc.devRef .tc main_arg2) = (m ((c : Thread nD τ).loc main_arg2)) := (keep1 m ρ c main_arg2 (by decide)).trans (W2_arg2 m ρ c)
theorem W3_arg5 : W3 m ρ c (Proc.devRef .tc main_arg5) = (m ((c : Thread nD τ).loc main_arg5)) := (keep1 m ρ c main_arg5 (by decide)).trans (W2_arg5 m ρ c)
theorem W3_arg6 : W3 m ρ c (Proc.devRef .tc main_arg6) = (m ((c : Thread nD τ).loc main_arg6)) := (keep1 m ρ c main_arg6 (by decide)).trans (W2_arg6 m ρ c)

theorem W3_v24' : W3 m ρ c (Proc.devRef .tc main_v24) = edgeSum128 (pre1 (m ((c : Thread nD τ).loc main_arg0)) (m ((c : Thread nD τ).loc main_arg1)) (m ((c : Thread nD τ).loc main_arg3))) (m ((c : Thread nD τ).loc main_arg1)) (m ((c : Thread nD τ).loc main_arg2)) := by
  rw [W3_v24 m ρ c, W2_v14 m ρ c, W2_arg1 m ρ c, W2_arg2 m ρ c]
theorem W3_v25' : W3 m ρ c (Proc.devRef .tc main_v25) = dstNorm (m ((c : Thread nD τ).loc main_arg2)) := by
  rw [W3_v25 m ρ c, W2_v12 m ρ c]; rfl
theorem W3_v26' : W3 m ρ c (Proc.devRef .tc main_v26) = rowOf (m ((c : Thread nD τ).loc main_arg4)) := by
  rw [W3_v26 m ρ c, W2_arg4 m ρ c]

/-! ## After region 1: its output is layer 1 -/

theorem W4_v9 : W4 m ρ c (Proc.devRef .tc main_v9) = (Cert.ReferenceIdeal.Read.val_main_v9 (F := Ideal) (m ((c : Thread nD τ).loc main_arg1))) := (W4_of_ne m ρ c main_v9 (by decide)).trans (W3_v9 m ρ c)
theorem W4_v12 : W4 m ρ c (Proc.devRef .tc main_v12) = (Cert.ReferenceIdeal.Read.val_main_v12 (F := Ideal) (m ((c : Thread nD τ).loc main_arg2))) := (W4_of_ne m ρ c main_v12 (by decide)).trans (W3_v12 m ρ c)
theorem W4_arg1 : W4 m ρ c (Proc.devRef .tc main_arg1) = (m ((c : Thread nD τ).loc main_arg1)) := (W4_of_ne m ρ c main_arg1 (by decide)).trans (W3_arg1 m ρ c)
theorem W4_arg2 : W4 m ρ c (Proc.devRef .tc main_arg2) = (m ((c : Thread nD τ).loc main_arg2)) := (W4_of_ne m ρ c main_arg2 (by decide)).trans (W3_arg2 m ρ c)
theorem W4_arg5 : W4 m ρ c (Proc.devRef .tc main_arg5) = (m ((c : Thread nD τ).loc main_arg5)) := (W4_of_ne m ρ c main_arg5 (by decide)).trans (W3_arg5 m ρ c)
theorem W4_arg6 : W4 m ρ c (Proc.devRef .tc main_arg6) = (m ((c : Thread nD τ).loc main_arg6)) := (W4_of_ne m ρ c main_arg6 (by decide)).trans (W3_arg6 m ρ c)

theorem W4_v27 : W4 m ρ c (Proc.devRef .tc main_v27) = (layer1 (m ((c : Thread nD τ).loc main_arg0)) (m ((c : Thread nD τ).loc main_arg1)) (m ((c : Thread nD τ).loc main_arg2)) (m ((c : Thread nD τ).loc main_arg3)) (m ((c : Thread nD τ).loc main_arg4))) := by
  refine (W4_arr m ρ c 3).trans ((Region1.value (V3 m ρ) c).trans ?_)
  show scaleBiasRelu (W3 m ρ c (Proc.devRef .tc main_v24)) (W3 m ρ c (Proc.devRef .tc main_v25)) (W3 m ρ c (Proc.devRef .tc main_v26)) = _
  rw [W3_v24' m ρ c, W3_v25' m ρ c, W3_v26' m ρ c]
  rfl

/-! ## After stretch 2: the source norm as a column again -/

theorem W5_v27 : W5 m ρ c (Proc.devRef .tc main_v27) = (layer1 (m ((c : Thread nD τ).loc main_arg0)) (m ((c : Thread nD τ).loc main_arg1)) (m ((c : Thread nD τ).loc main_arg2)) (m ((c : Thread nD τ).loc main_arg3)) (m ((c : Thread nD τ).loc main_arg4))) := (keep2 m ρ c main_v27 (by decide)).trans (W4_v27 m ρ c)
theorem W5_v12 : W5 m ρ c (Proc.devRef .tc main_v12) = (Cert.ReferenceIdeal.Read.val_main_v12 (F := Ideal) (m ((c : Thread nD τ).loc main_arg2))) := (keep2 m ρ c main_v12 (by decide)).trans (W4_v12 m ρ c)
theorem W5_arg1 : W5 m ρ c (Proc.devRef .tc main_arg1) = (m ((c : Thread nD τ).loc main_arg1)) := (keep2 m ρ c main_arg1 (by decide)).trans (W4_arg1 m ρ c)
theorem W5_arg2 : W5 m ρ c (Proc.devRef .tc main_arg2) = (m ((c : Thread nD τ).loc main_arg2)) := (keep2 m ρ c main_arg2 (by decide)).trans (W4_arg2 m ρ c)
theorem W5_arg5 : W5 m ρ c (Proc.devRef .tc main_arg5) = (m ((c : Thread nD τ).loc main_arg5)) := (keep2 m ρ c main_arg5 (by decide)).trans (W4_arg5 m ρ c)
theorem W5_arg6 : W5 m ρ c (Proc.devRef .tc main_arg6) = (m ((c : Thread nD τ).loc main_arg6)) := (keep2 m ρ c main_arg6 (by decide)).trans (W4_arg6 m ρ c)

theorem W5_v28' : W5 m ρ c (Proc.devRef .tc main_v28) = srcNorm (m ((c : Thread nD τ).loc main_arg1)) := by
  rw [W5_v28 m ρ c, W4_v9 m ρ c]; rfl

/-! ## After region 2: its output is layer 2's scaled product -/

theorem W6_v12 : W6 m ρ c (Proc.devRef .tc main_v12) = (Cert.ReferenceIdeal.Read.val_main_v12 (F := Ideal) (m ((c : Thread nD τ).loc main_arg2))) := (W6_of_ne m ρ c main_v12 (by decide)).trans (W5_v12 m ρ c)
theorem W6_arg1 : W6 m ρ c (Proc.devRef .tc main_arg1) = (m ((c : Thread nD τ).loc main_arg1)) := (W6_of_ne m ρ c main_arg1 (by decide)).trans (W5_arg1 m ρ c)
theorem W6_arg2 : W6 m ρ c (Proc.devRef .tc main_arg2) = (m ((c : Thread nD τ).loc main_arg2)) := (W6_of_ne m ρ c main_arg2 (by decide)).trans (W5_arg2 m ρ c)
theorem W6_arg6 : W6 m ρ c (Proc.devRef .tc main_arg6) = (m ((c : Thread nD τ).loc main_arg6)) := (W6_of_ne m ρ c main_arg6 (by decide)).trans (W5_arg6 m ρ c)

theorem W6_v29 : W6 m ρ c (Proc.devRef .tc main_v29) = (pre2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (W6_arr m ρ c 3).trans ((Region2.value (V5 m ρ) c).trans ?_)
  show scaledProduct (W5 m ρ c (Proc.devRef .tc main_v27)) (W5 m ρ c (Proc.devRef .tc main_arg5)) (W5 m ρ c (Proc.devRef .tc main_v28)) = _
  rw [W5_v27 m ρ c, W5_arg5 m ρ c, W5_v28' m ρ c]
  rfl

/-! ## After stretch 3: the neighbour sum, the destination norm, the second bias -/

theorem W7_v39' : W7 m ρ c (Proc.devRef .tc main_v39) = edgeSum40 (pre2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) := by
  rw [W7_v39 m ρ c, W6_v29 m ρ c, W6_arg1 m ρ c, W6_arg2 m ρ c]
theorem W7_v40' : W7 m ρ c (Proc.devRef .tc main_v40) = dstNorm (m ((c : Thread nD τ).loc main_arg2)) := by
  rw [W7_v40 m ρ c, W6_v12 m ρ c]; rfl
theorem W7_v41' : W7 m ρ c (Proc.devRef .tc main_v41) = rowOf (m ((c : Thread nD τ).loc main_arg6)) := by
  rw [W7_v41 m ρ c, W6_arg6 m ρ c]

/-! ## After region 3: the result -/

/-- The result buffer at the last boundary holds the network's function of the seven arguments. -/
theorem W8_v42 : W8 m ρ c (Proc.devRef .tc main_v42) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 3).trans ((Region3.value (V7 m ρ) c).trans ?_)
  show scaleBias (W7 m ρ c (Proc.devRef .tc main_v39)) (W7 m ρ c (Proc.devRef .tc main_v40)) (W7 m ρ c (Proc.devRef .tc main_v41)) = _
  rw [W7_v39' m ρ c, W7_v40' m ρ c, W7_v41' m ρ c]
  rfl

end Cert.KernelIdeal.Fold

end
-- ==== Proof.DegreeScale.lean ====
/-
  The one algebraic law that separates the two programs, and the fact about the degree norm that makes it hold.

  Each graph-convolution layer multiplies row `r` of its input by the source norm `n r` and by the weight matrix.
  One program scales the product, `(∑ k, x r k * w k c) * n r`; the other scales the input first,
  `∑ k, (x r k * n r) * w k c`.  On the extended reals a factor moves across a sum only when it is nonnegative
  and not `+∞` (at `+∞` the terms of a sum of mixed signs would all become infinite).  The norm is
  `rsqrt (max d 1)` for a degree `d`: `max d 1` is positive, so its reciprocal square root is `0` (at `+∞`)
  or the positive real `(√r)⁻¹` — nonnegative and finite whatever `d` is.  No input needs to be finite for this.
-/
import Idealize.ShloMosaic.PureOps.Ideal

noncomputable section

namespace Cert.DegreeScale

open Idealize.ShloMosaic

/-- The word `0x3F800000` is the real number one. -/
theorem one_word : Ideal.ofBits .f32 0x3F800000#32 = 1 := by
  simp [Ideal.ofBits, Ideal.ieee, -EReal.coe_mul]; norm_num

/-- The reciprocal square root of a positive extended real is nonnegative and is not `+∞`. -/
theorem rsqrt_of_pos (y : EReal) (hy : 0 < y) : 0 ≤ Ideal.rsqrt y ∧ Ideal.rsqrt y ≠ ⊤ := by
  induction y using EReal.rec with
  | bot => exact absurd hy (by simp)
  | top => simp
  | coe r =>
    have hr : 0 < r := by exact_mod_cast hy
    rw [Ideal.rsqrt_coe, if_neg (not_lt.2 hr.le), if_neg hr.ne']
    refine ⟨?_, EReal.coe_ne_top _⟩
    exact_mod_cast (inv_nonneg.2 (Real.sqrt_nonneg r))

/-- The degree norm `rsqrt (max d 1)` is nonnegative and finite for EVERY extended real `d`. -/
theorem norm_nonneg_finite (d : EReal) :
    0 ≤ Ideal.rsqrt (max d (Ideal.ofBits .f32 0x3F800000#32))
      ∧ Ideal.rsqrt (max d (Ideal.ofBits .f32 0x3F800000#32)) ≠ ⊤ := by
  apply rsqrt_of_pos
  rw [one_word]
  exact lt_of_lt_of_le zero_lt_one (le_max_right d 1)

/-- A nonnegative finite factor moves across a finite sum of extended reals. -/
theorem sum_mul_of_nonneg {ι : Type*} (s : Finset ι) (a : ι → EReal) (c : EReal) (h0 : 0 ≤ c) (ht : c ≠ ⊤) :
    (∑ k ∈ s, a k) * c = ∑ k ∈ s, a k * c := by
  classical
  induction s using Finset.induction_on with
  | empty => simp
  | insert i s hi ih =>
    rw [Finset.sum_insert hi, Finset.sum_insert hi, EReal.right_distrib_of_nonneg_of_ne_top h0 ht, ih]

/-- THE LAW: scaling a row's product with the weights by the row's norm is the product of the scaled row, when the
    norm is nonnegative and finite.  (Commutativity and associativity of the product hold on all of the extended
    reals; only the sum needs the hypothesis.) -/
theorem scaled_dot {ι : Type*} [Fintype ι] (x w : ι → EReal) (c : EReal) (h0 : 0 ≤ c) (ht : c ≠ ⊤) :
    (∑ k, x k * w k) * c = ∑ k, (x k * c) * w k := by
  rw [sum_mul_of_nonneg Finset.univ _ c h0 ht]
  exact Finset.sum_congr rfl fun k _ => by rw [mul_assoc, mul_comm (w k) c, ← mul_assoc]

end Cert.DegreeScale

end
-- ==== Proof.RefLayers.lean ====
/-
  The reference program's stages are the layer specification, index by index on the extended reals.

  Every stage of the reference is read at an index `(r, q)` from its operands; the broadcasts of the two degree
  norms and of the biases only re-index a vector, so each bias stage is the specification's entry as it stands.
  The one step that is not a re-indexing is a layer's product with its weights.  The reference scales the INPUT row
  by the source norm before the product, `∑ k, (x r k * n r) * w k q`; the specification scales the PRODUCT,
  `(∑ k, x r k * w k q) * n r`.  On the extended reals a factor moves across a finite sum only when it is
  nonnegative and not `+∞`.  The norm is `n r = rsqrt (max d 1)` for the node's degree `d`: `max d 1 ≥ 1 > 0`, so
  its reciprocal square root is `0` (when `d = +∞`) or a positive real — nonnegative and finite for EVERY `d`.
  No input needs to be finite, and the degree itself (a scatter-add over the edge list) is never opened.
  The neighbour sums along the edges are the same host operations on both sides and stay closed as well.
-/
import proofs.«140253_j16192026706523_1_alg».proof.Proof.GcnSpec
import proofs.«140253_j16192026706523_1_alg».proof.Proof.DegreeScale
import Idealize.ShloMosaic.Lib.ValueIdx
import Idealize.ShloMosaic.PureOps.Ideal.Laws

noncomputable section

namespace Cert.GcnSpec.Ref

open Idealize.ShloMosaic Idealize.ShloMosaic.ValueIdx Cert.ReferenceIdeal Cert.ReferenceIdeal.Read Cert.GcnSpec Cert.LayerSpec

variable (x0 : (⟨S50000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal))
    (x5 : (⟨S128x40, .f32⟩ : BufTy).Contents (Elt Ideal)) (x6 : (⟨S40, .f32⟩ : BufTy).Contents (Elt Ideal))

/-- The source norm of node `r` is `rsqrt (max d 1)` with `d` the node's out-degree (the degree stays closed). -/
theorem srcNorm_form (r : Fin 50000) :
    ∃ d : EReal, val_main_v9 (F := Ideal) x1 (ix1 r) = Ideal.rsqrt (max d (Ideal.ofBits .f32 0x3F800000#32)) := by
  refine ⟨val_main_v3 (F := Ideal) x1 (ix1 r), ?_⟩
  rw [val_main_v9_apply, val_main_v8_apply, val_main_v7_apply, val_main_cst_2_apply]
  simp only [Ideal.hostUnary_rsqrt_def, Ideal.maximumf_def, Ideal.ofBits_def]

/-- Hence the source norm is nonnegative and is not `+∞`, whatever the graph is. -/
theorem srcNorm_nonneg_finite (r : Fin 50000) :
    0 ≤ val_main_v9 (F := Ideal) x1 (ix1 r) ∧ val_main_v9 (F := Ideal) x1 (ix1 r) ≠ ⊤ := by
  obtain ⟨d, hd⟩ := srcNorm_form x1 r
  rw [hd]
  exact DegreeScale.norm_nonneg_finite d

/-- THE STEP: the product of a row scaled by the source norm is the scaled product of the row.  The norm is
    nonnegative and finite, so it moves across the sum over `k`. -/
theorem scaled_row_dot {N : Nat} (h : (⟨2, ![50000, 128]⟩ : Shape).Idx → EReal) (w : (⟨2, ![128, N]⟩ : Shape).Idx → EReal)
    (r : Fin 50000) (q : Fin N) :
    (∑ k : Fin 128, (h (ix2 r k) * val_main_v9 (F := Ideal) x1 (ix1 r)) * w (ix2 k q))
      = scaledProduct h w (srcNorm x1) (ix2 r q) := by
  obtain ⟨h0, ht⟩ := srcNorm_nonneg_finite x1 r
  rw [scaledProduct_apply]
  exact (DegreeScale.scaled_dot (fun k : Fin 128 => h (ix2 r k)) (fun k : Fin 128 => w (ix2 k q)) _ h0 ht).symm

/-- Layer 1's product: the input rows scaled by the source norm, times `W1`. -/
theorem ref_pre1 : val_main_v16 (F := Ideal) x0 x1 x3 = pre1 x0 x1 x3 := by
  unfold pre1
  funext i
  obtain ⟨r, q, rfl⟩ : ∃ (r : Fin 50000) (q : Fin 128), i = ix2 r q := ⟨i 0, i 1, eq_ix2 i⟩
  have hl : ∀ k : Fin 128, lidx_main_v16 (ix2 r q) k = ix2 r k := fun k =>
    funext fun a => by match a with | ⟨0, _⟩ => rfl | ⟨1, _⟩ => rfl
  have hr : ∀ k : Fin 128, ridx_main_v16 (ix2 r q) k = ix2 k q := fun k =>
    funext fun a => by match a with | ⟨0, _⟩ => rfl | ⟨1, _⟩ => rfl
  have hn : ∀ k : Fin 128, idx_main_v13 (idx_main_v14 (ix2 r k)) = ix1 r := fun k =>
    funext fun a => by match a with | ⟨0, _⟩ => rfl
  rw [val_main_v16_apply]
  refine Eq.trans ?_ (scaled_row_dot x1 x0 x3 r q)
  refine Finset.sum_congr rfl fun k _ => ?_
  rw [hl k, hr k, val_main_v15_apply, val_main_v14_apply, val_main_v13_apply, hn k, Ideal.mulf_def]

/-- Layer 1: the neighbour sum scaled by the destination norm, plus the bias, clamped below at zero. -/
theorem ref_layer1 : val_main_v33 (F := Ideal) x0 x1 x2 x3 x4 = layer1 x0 x1 x2 x3 x4 := by
  funext i
  obtain ⟨r, q, rfl⟩ : ∃ (r : Fin 50000) (q : Fin 128), i = ix2 r q := ⟨i 0, i 1, eq_ix2 i⟩
  have hn : idx_main_v27 (idx_main_v28 (ix2 r q)) = ix1 r :=
    funext fun a => by match a with | ⟨0, _⟩ => rfl
  have hb : idx_main_v30 (idx_main_v31 (ix2 r q)) = ix1 q :=
    funext fun a => by match a with | ⟨0, _⟩ => rfl
  rw [val_main_v33_apply, val_main_v32_apply, val_main_v29_apply, val_main_v28_apply, val_main_v27_apply,
    val_main_v31_apply, val_main_v30_apply, val_main_call0_v0_apply, val_main_call0_cst_apply, ref_v26, ref_pre1, hn, hb]
  unfold layer1
  generalize edgeSum128 (pre1 x0 x1 x3) x1 x2 = agg
  rw [Ideal.maximumf_def, Ideal.addf_def, Ideal.mulf_def, Ideal.ofBits_def, scaleBiasRelu_apply]
  unfold dstNorm
  rw [colOf_apply, rowOf_apply]

/-- Layer 2's product: layer 1's rows scaled by the source norm, times `W2`. -/
theorem ref_pre2 : val_main_v37 (F := Ideal) x0 x1 x2 x3 x4 x5 = pre2 x0 x1 x2 x3 x4 x5 := by
  have e : pre2 x0 x1 x2 x3 x4 x5
      = scaledProduct (val_main_v33 (F := Ideal) x0 x1 x2 x3 x4) x5 (srcNorm x1) := by
    unfold pre2; rw [ref_layer1]
  have e36 : val_main_v36 (F := Ideal) x0 x1 x2 x3 x4
      = mulf (F := Ideal) (s := S50000x128) (φ := .f32) (val_main_v33 (F := Ideal) x0 x1 x2 x3 x4)
          (val_main_v35 (F := Ideal) x1) := rfl
  rw [e]
  funext i
  obtain ⟨r, q, rfl⟩ : ∃ (r : Fin 50000) (q : Fin 40), i = ix2 r q := ⟨i 0, i 1, eq_ix2 i⟩
  have hl : ∀ k : Fin 128, lidx_main_v37 (ix2 r q) k = ix2 r k := fun k =>
    funext fun a => by match a with | ⟨0, _⟩ => rfl | ⟨1, _⟩ => rfl
  have hr : ∀ k : Fin 128, ridx_main_v37 (ix2 r q) k = ix2 k q := fun k =>
    funext fun a => by match a with | ⟨0, _⟩ => rfl | ⟨1, _⟩ => rfl
  have hn : ∀ k : Fin 128, idx_main_v34 (idx_main_v35 (ix2 r k)) = ix1 r := fun k =>
    funext fun a => by match a with | ⟨0, _⟩ => rfl
  rw [val_main_v37_apply, e36]
  generalize val_main_v33 (F := Ideal) x0 x1 x2 x3 x4 = h1
  refine Eq.trans ?_ (scaled_row_dot x1 h1 x5 r q)
  refine Finset.sum_congr rfl fun k _ => ?_
  rw [hl k, hr k, mulf_apply, val_main_v35_apply, val_main_v34_apply, hn k]

/-- The result: the second neighbour sum scaled by the destination norm, plus the bias. -/
theorem ref_out : val_main_v53 (F := Ideal) x0 x1 x2 x3 x4 x5 x6 = out x0 x1 x2 x3 x4 x5 x6 := by
  funext i
  obtain ⟨r, q, rfl⟩ : ∃ (r : Fin 50000) (q : Fin 40), i = ix2 r q := ⟨i 0, i 1, eq_ix2 i⟩
  have hn : idx_main_v48 (idx_main_v49 (ix2 r q)) = ix1 r :=
    funext fun a => by match a with | ⟨0, _⟩ => rfl
  have hb : idx_main_v51 (idx_main_v52 (ix2 r q)) = ix1 q :=
    funext fun a => by match a with | ⟨0, _⟩ => rfl
  rw [val_main_v53_apply, val_main_v50_apply, val_main_v49_apply, val_main_v48_apply,
    val_main_v52_apply, val_main_v51_apply, ref_v47, ref_pre2, hn, hb]
  unfold out
  generalize edgeSum40 (pre2 x0 x1 x2 x3 x4 x5) x1 x2 = agg
  rw [Ideal.addf_def, Ideal.mulf_def, scaleBias_apply]
  unfold dstNorm
  rw [colOf_apply, rowOf_apply]

end Cert.GcnSpec.Ref

end
-- ==== Proof.lean ====
/-
  A two-layer graph convolution over 50000 nodes and 1.6 million edges: the kernel against its reference, on the
  extended reals.

  Both programs compute, per layer, `agg · nd + b` (clamped at zero after the first layer), where `agg` is the sum
  over the edges into a node of the source node's row of `h`, `h` the node features times the layer's weights scaled
  by the source norm, and `ns`, `nd` the degree norms `rsqrt (max degree 1)`.  They differ in one place: the kernel
  scales the product, `(∑ k, x r k * w k q) * ns r` (a matrix-unit product into a zero accumulator inside a pipelined
  region; the format changes around it are the identity on the extended reals), the reference scales the input first,
  `∑ k, (x r k * ns r) * w k q`.  A factor moves across a sum of extended reals when it is nonnegative and finite,
  and `rsqrt (max d 1)` is both whatever the degree `d` is (`DegreeScale`); so the two programs agree at every
  input, and the precondition (finite float inputs) is never opened.

  The kernel is four pipelined regions among four stretches of host operations.  Its run with the result named at the
  last boundary is `KernelRun`; the boundaries are read back in `FoldHost` (the stretches) and `Region0` … `Region3`
  (each region's output array as one function of its input arrays: a block of 2000 rows is the same function of the
  same rows), composed in `FoldChain` to `GcnSpec.out` of the seven arguments.  The reference's run and its stages
  are the generated modules; `RefLayers` identifies its stages with the same `GcnSpec.out`.
-/
import proofs.«140253_j16192026706523_1_alg».proof.Defs
import proofs.«140253_j16192026706523_1_alg».proof.Proof.Gen.Kernel
import proofs.«140253_j16192026706523_1_alg».proof.Proof.Gen.Kernel.Skeleton
import proofs.«140253_j16192026706523_1_alg».proof.Proof.Gen.Kernel.Launch
import proofs.«140253_j16192026706523_1_alg».proof.Proof.Gen.Kernel.Points
import proofs.«140253_j16192026706523_1_alg».proof.Proof.Gen.Kernel.Frame
import proofs.«140253_j16192026706523_1_alg».proof.Proof.Gen.KernelIdeal
import proofs.«140253_j16192026706523_1_alg».proof.Proof.Gen.KernelIdeal.Skeleton
import proofs.«140253_j16192026706523_1_alg».proof.Proof.Gen.KernelIdeal.Launch
import proofs.«140253_j16192026706523_1_alg».proof.Proof.Gen.KernelIdeal.Points
import proofs.«140253_j16192026706523_1_alg».proof.Proof.Gen.KernelIdeal.Frame
import proofs.«140253_j16192026706523_1_alg».proof.Proof.Gen.ReferenceIdeal
import proofs.«140253_j16192026706523_1_alg».proof.Proof.Gen.Pre_finite_inputs
import proofs.«140253_j16192026706523_1_alg».proof.Proof.Gen.ReferenceIdeal.Run
import proofs.«140253_j16192026706523_1_alg».proof.Proof.Gen.ReferenceIdeal.Read
import proofs.«140253_j16192026706523_1_alg».proof.Proof.KernelRun
import proofs.«140253_j16192026706523_1_alg».proof.Proof.FoldChain
import proofs.«140253_j16192026706523_1_alg».proof.Proof.RefLayers
import Idealize.ShloMosaic.Adequacy
import Idealize.ShloMosaic.Init

noncomputable section

namespace Cert.Proof

open Idealize.ShloMosaic Idealize.ShloMosaic.TcCoe Idealize.SL.Sem

/-- The word-level kernel runs and leaves its arguments alone (the generated frame). -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a host program: its frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the result at `GcnSpec.out` of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.GcnSpec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Fold.W8_v42 m ρ c), (h c).2⟩)
      (Cert.KernelIdeal.ResultRun.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6⟩ := hagree c
    rw [Cert.ReferenceIdeal.Read.val_main_v53_eq, Cert.GcnSpec.Ref.ref_out, e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
